-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v38)) (v1 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_v51) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x128 : Shape := ⟨2, ![32, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S32 .f32) (main_arg7 : FVec F S32x128 .f32) (main_arg8 : FVec F S128 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x128 .f32 := Host.absf main_arg7
  let main_cst_8 : FVec F S_ .f32 := constant S_ .f32 0x7F800000#32
  let main_v25 : FVec F S32x128 .f32 := broadcastInDim S32x128 ![] bcast_S_S32x128 main_cst_8
  let main_v26 : IVec S32x128 1 := cmpf .olt main_v24 main_v25
  let main_c_9 : IVec S_ 1 := constantI S_ 1 1#1
  let main_v27 : IVec S_ 1 := (fun x v => Host.reduce IntOp.andi x v reducesTo_S32x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S600000 32) (main_arg2 : IVec S600000 32) (main_arg3 : FVec F S128x64 .f32) (main_arg4 : FVec F S64 .f32) (main_arg5 : FVec F S64x32 .f32) (main_arg6 : FVec F S32 .f32) (main_arg7 : FVec F S32x128 .f32) (main_arg8 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg5
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg6 main_arg7 main_arg8 main_v13 main_v16
-- ==== Kernel.lean ====
abbrev S50000x128 : Shape := ⟨2, ![50000, 128]⟩
abbrev S600000 : Shape := ⟨1, ![600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x128 : Shape := ⟨2, ![32, 128]⟩
abbrev S128 : Shape := ⟨1, ![128]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S10000x128 : Shape := ⟨2, ![10000, 128]⟩
abbrev S10000x1 : Shape := ⟨2, ![10000, 1]⟩
abbrev S600000x128 : Shape := ⟨2, ![600000, 128]⟩
abbrev S1x64 : Shape := ⟨2, ![1, 64]⟩
abbrev S50000x64 : Shape := ⟨2, ![50000, 64]⟩
abbrev S10000x64 : Shape := ⟨2, ![10000, 64]⟩
abbrev S600000x64 : Shape := ⟨2, ![600000, 64]⟩
abbrev S1x32 : Shape := ⟨2, ![1, 32]⟩
abbrev S50000x32 : Shape := ⟨2, ![50000, 32]⟩
abbrev S10000x32 : Shape := ⟨2, ![10000, 32]⟩
abbrev S600000x32 : Shape := ⟨2, ![600000, 32]⟩
abbrev S1x128 : Shape := ⟨2, ![1, 128]⟩

abbrev nBuf : Space → Nat
  | .hbm => 79
  | .vmem => 42
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S128x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S32x128, .f32⟩
  | .hbm, ⟨8, _⟩ => ⟨S128, .f32⟩
  | .hbm, ⟨9, _⟩ => ⟨S_, .f32⟩
  | .hbm, ⟨10, _⟩ => ⟨S600000, .f32⟩
  | .hbm, ⟨11, _⟩ => ⟨S_, .f32⟩
  | .hbm, ⟨12, _⟩ => ⟨S50000, .f32⟩
  | .hbm, ⟨13, _⟩ => ⟨S600000x1, .i32⟩
  | .hbm, ⟨14, _⟩ => ⟨S50000, .f32⟩
  | .hbm, ⟨15, _⟩ => ⟨S_, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S600000x1, .i32⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000, .f32⟩
  | .hbm, ⟨30, _⟩ => ⟨S50000x1, .f32⟩
  | .hbm, ⟨31, _⟩ => ⟨S50000x128, .f32⟩
  | .hbm, ⟨32, _⟩ => ⟨S_, .i32⟩
  | .hbm, ⟨33, _⟩ => ⟨S600000, .i32⟩
  | .hbm, ⟨34, _⟩ => ⟨S600000, .i1⟩
  | .hbm, ⟨35, _⟩ => ⟨S_, .i32⟩
  | .hbm, ⟨36, _⟩ => ⟨S600000, .i32⟩
  | .hbm, ⟨37, _⟩ => ⟨S600000, .i32⟩
  | .hbm, ⟨38, _⟩ => ⟨S600000, .i32⟩
  | .hbm, ⟨39, _⟩ => ⟨S600000x1, .i32⟩
  | .hbm, ⟨40, _⟩ => ⟨S600000x128, .f32⟩
  | .hbm, ⟨41, _⟩ => ⟨S_, .f32⟩
  | .hbm, ⟨42, _⟩ => ⟨S50000x128, .f32⟩
  | .hbm, ⟨43, _⟩ => ⟨S600000x1, .i32⟩
  | .hbm, ⟨44, _⟩ => ⟨S50000x128, .f32⟩
  | .hbm, ⟨45, _⟩ => ⟨S1x64, .f32⟩
  | .hbm, ⟨46, _⟩ => ⟨S50000x64, .f32⟩
  | .hbm, ⟨47, _⟩ => ⟨S50000x64, .f32⟩
  | .hbm, ⟨48, _⟩ => ⟨S_, .i32⟩
  | .hbm, ⟨49, _⟩ => ⟨S600000, .i32⟩
  | .hbm, ⟨50, _⟩ => ⟨S600000, .i1⟩
  | .hbm, ⟨51, _⟩ => ⟨S_, .i32⟩
  | .hbm, ⟨52, _⟩ => ⟨S600000, .i32⟩
  | .hbm, ⟨53, _⟩ => ⟨S600000, .i32⟩
  | .hbm, ⟨54, _⟩ => ⟨S600000, .i32⟩
  | .hbm, ⟨55, _⟩ => ⟨S600000x1, .i32⟩
  | .hbm, ⟨56, _⟩ => ⟨S600000x64, .f32⟩
  | .hbm, ⟨57, _⟩ => ⟨S_, .f32⟩
  | .hbm, ⟨58, _⟩ => ⟨S50000x64, .f32⟩
  | .hbm, ⟨59, _⟩ => ⟨S600000x1, .i32⟩
  | .hbm, ⟨60, _⟩ => ⟨S50000x64, .f32⟩
  | .hbm, ⟨61, _⟩ => ⟨S1x32, .f32⟩
  | .hbm, ⟨62, _⟩ => ⟨S50000x32, .f32⟩
  | .hbm, ⟨63, _⟩ => ⟨S50000x32, .f32⟩
  | .hbm, ⟨64, _⟩ => ⟨S_, .i32⟩
  | .hbm, ⟨65, _⟩ => ⟨S600000, .i32⟩
  | .hbm, ⟨66, _⟩ => ⟨S600000, .i1⟩
  | .hbm, ⟨67, _⟩ => ⟨S_, .i32⟩
  | .hbm, ⟨68, _⟩ => ⟨S600000, .i32⟩
  | .hbm, ⟨69, _⟩ => ⟨S600000, .i32⟩
  | .hbm, ⟨70, _⟩ => ⟨S600000, .i32⟩
  | .hbm, ⟨71, _⟩ => ⟨S600000x1, .i32⟩
  | .hbm, ⟨72, _⟩ => ⟨S600000x32, .f32⟩
  | .hbm, ⟨73, _⟩ => ⟨S_, .f32⟩
  | .hbm, ⟨74, _⟩ => ⟨S50000x32, .f32⟩
  | .hbm, ⟨75, _⟩ => ⟨S600000x1, .i32⟩
  | .hbm, ⟨76, _⟩ => ⟨S50000x32, .f32⟩
  | .hbm, ⟨77, _⟩ => ⟨S1x128, .f32⟩
  | .hbm, ⟨78, _⟩ => ⟨S50000x128, .f32⟩
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x1, .f32⟩
  | .local _ .vmem, ⟨9, _⟩ => ⟨S10000x1, .f32⟩
  | .local _ .vmem, ⟨10, _⟩ => ⟨S128x64, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x1, .f32⟩
  | .local _ .vmem, ⟨17, _⟩ => ⟨S10000x1, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x1, .f32⟩
  | .local _ .vmem, ⟨23, _⟩ => ⟨S10000x1, .f32⟩
  | .local _ .vmem, ⟨24, _⟩ => ⟨S64x32, .f32⟩
  | .local _ .vmem, ⟨25, _⟩ => ⟨S1x32, .f32⟩
  | .local _ .vmem, ⟨26, _⟩ => ⟨S10000x32, .f32⟩
  | .local _ .vmem, ⟨27, _⟩ => ⟨S10000x32, .f32⟩
  | .local _ .vmem, ⟨28, _⟩ => ⟨S10000x32, .f32⟩
  | .local _ .vmem, ⟨29, _⟩ => ⟨S10000x32, .f32⟩
  | .local _ .vmem, ⟨30, _⟩ => ⟨S10000x1, .f32⟩
  | .local _ .vmem, ⟨31, _⟩ => ⟨S10000x1, .f32⟩
  | .local _ .vmem, ⟨32, _⟩ => ⟨S10000x32, .f32⟩
  | .local _ .vmem, ⟨33, _⟩ => ⟨S10000x32, .f32⟩
  | .local _ .vmem, ⟨34, _⟩ => ⟨S10000x32, .f32⟩
  | .local _ .vmem, ⟨35, _⟩ => ⟨S10000x32, .f32⟩
  | .local _ .vmem, ⟨36, _⟩ => ⟨S10000x1, .f32⟩
  | .local _ .vmem, ⟨37, _⟩ => ⟨S10000x1, .f32⟩
  | .local _ .vmem, ⟨38, _⟩ => ⟨S32x128, .f32⟩
  | .local _ .vmem, ⟨39, _⟩ => ⟨S1x128, .f32⟩
  | .local _ .vmem, ⟨40, _⟩ => ⟨S10000x128, .f32⟩
  | .local _ .vmem, ⟨41, _⟩ => ⟨S10000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_c_7 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_8 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_c_9 : Ref sig .tc := ⟨.hbm, 64, rfl⟩
abbrev main_v40 : Ref sig .tc := ⟨.hbm, 65, rfl⟩
abbrev main_v41 : Ref sig .tc := ⟨.hbm, 66, rfl⟩
abbrev main_c_10 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_11 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem3_0 : DmaSem sig := 39
abbrev cc5_sem4_0 : DmaSem sig := 40
abbrev cc5_sem4_1 : DmaSem sig := 41

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x32 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S32x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S10000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  inb_S10000x128_S10000x128_0_0 : ∀ a, (![0, 0] : Fin 2 → Nat) a + S10000x128.size a ≤ S10000x128.size a
  h_S10000x128 : 0 < S10000x128.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S_S50000x128 : S_.BroadcastsInDim S50000x128 (![] : Fin 0 → Fin S50000x128.rank)
  shapeCasts_S64_S1x64 : S64.ShapeCasts S1x64
  shapeCasts_S10000x128_S10000x128 : S10000x128.ShapeCasts S10000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S10000x1_S10000x64 : S10000x1.Broadcasts S10000x64
  bcast_S_S50000x64 : S_.BroadcastsInDim S50000x64 (![] : Fin 0 → Fin S50000x64.rank)
  shapeCasts_S32_S1x32 : S32.ShapeCasts S1x32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  broadcasts_S10000x1_S10000x32 : S10000x1.Broadcasts S10000x32
  bcast_S_S50000x32 : S_.BroadcastsInDim S50000x32 (![] : Fin 0 → Fin S50000x32.rank)
  shapeCasts_S128_S1x128 : S128.ShapeCasts S1x128
  inb_S32x128_S32x128_0_0 : ∀ a, (![0, 0] : Fin 2 → Nat) a + S32x128.size a ≤ S32x128.size a
  h_S32x128 : 0 < S32x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S10000x128_S128x64_S10000x64_1_0_0_1_n_n_wf : DotDims.WF S10000x128 S128x64 S10000x64 [1] [0] [0] [1] [] []
  gather_S50000x64_S600000x1_S600000x64_1_0_n_n_0_1_164_wf : GatherDims.WF S50000x64 S600000x1 S600000x64 [1] [0] [] [0] [] 1 ![1, 64]
  scatter_S50000x64_S600000x1_S600000x64_1_0_0_1_wf : ScatterDims.WF S50000x64 S600000x1 S600000x64 [1] [0] [0] 1
  dot_S10000x64_S64x32_S10000x32_1_0_0_1_n_n_wf : DotDims.WF S10000x64 S64x32 S10000x32 [1] [0] [0] [1] [] []
  gather_S50000x32_S600000x1_S600000x32_1_0_n_n_0_1_132_wf : GatherDims.WF S50000x32 S600000x1 S600000x32 [1] [0] [] [0] [] 1 ![1, 32]
  scatter_S50000x32_S600000x1_S600000x32_1_0_0_1_wf : ScatterDims.WF S50000x32 S600000x1 S600000x32 [1] [0] [0] 1
  dot_S10000x32_S32x128_S10000x128_1_0_0_1_n_n_wf : DotDims.WF S10000x32 S32x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S50000x1.size a
  hwx0_1 : ∀ i : grid0.Coords, EltTy.bits .f32 = 32 ∨ (Rect.block (s := S50000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S50000x1.size a
  hwx1_1 : ∀ i : grid1.Coords, EltTy.bits .f32 = 32 ∨ (Rect.block (s := S50000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S50000x64.size a
  hwx1_4 : ∀ i : grid1.Coords, EltTy.bits .f32 = 32 ∨ (Rect.block (s := S50000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S50000x1.size a
  hwx2_1 : ∀ i : grid2.Coords, EltTy.bits .f32 = 32 ∨ (Rect.block (s := S50000x1) S10000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S50000x64.size a
  hwx2_2 : ∀ i : grid2.Coords, EltTy.bits .f32 = 32 ∨ (Rect.block (s := S50000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S50000x64.size a
  hwx3_0 : ∀ i : grid3.Coords, EltTy.bits .f32 = 32 ∨ (Rect.block (s := S50000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S50000x1.size a
  hwx3_1 : ∀ i : grid3.Coords, EltTy.bits .f32 = 32 ∨ (Rect.block (s := S50000x1) S10000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x32.size a ≤ S64x32.size a
  hwx3_2 : ∀ i : grid3.Coords, EltTy.bits .f32 = 32 ∨ (Rect.block (s := S64x32) S64x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x32.size a ≤ S50000x32.size a
  hwx3_4 : ∀ i : grid3.Coords, EltTy.bits .f32 = 32 ∨ (Rect.block (s := S50000x32) S10000x32.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x32.size a ≤ S50000x32.size a
  hwx4_0 : ∀ i : grid4.Coords, EltTy.bits .f32 = 32 ∨ (Rect.block (s := S50000x32) S10000x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S50000x1.size a
  hwx4_1 : ∀ i : grid4.Coords, EltTy.bits .f32 = 32 ∨ (Rect.block (s := S50000x1) S10000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x32.size a ≤ S50000x32.size a
  hwx4_2 : ∀ i : grid4.Coords, EltTy.bits .f32 = 32 ∨ (Rect.block (s := S50000x32) S10000x32.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x32.size a ≤ S50000x32.size a
  hwx5_0 : ∀ i : grid5.Coords, EltTy.bits .f32 = 32 ∨ (Rect.block (s := S50000x32) S10000x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x1.size a ≤ S50000x1.size a
  hwx5_1 : ∀ i : grid5.Coords, EltTy.bits .f32 = 32 ∨ (Rect.block (s := S50000x1) S10000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S32x128.size a ≤ S32x128.size a
  hwx5_2 : ∀ i : grid5.Coords, EltTy.bits .f32 = 32 ∨ (Rect.block (s := S32x128) S32x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S10000x128.size a ≤ S50000x128.size a
  hwx5_4 : ∀ i : grid5.Coords, EltTy.bits .f32 = 32 ∨ (Rect.block (s := S50000x128) S10000x128.size (cc5_transform_4 i) (hinb5_4 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S50000x64_S600000x1_S600000x64_1_0_n_n_0_1_164 : GatherDims S50000x64 S600000x1 S600000x64 where
  offsetDims := [1]
  collapsedSliceDims := [0]
  operandBatchingDims := []
  startIndicesBatchingDims := []
  startIndexMap := [0]
  indexVectorDim := 1
  sliceSizes := ![1, 64]
  wf := gather_S50000x64_S600000x1_S600000x64_1_0_n_n_0_1_164_wf
def scatter_S50000x64_S600000x1_S600000x64_1_0_0_1 : ScatterDims S50000x64 S600000x1 S600000x64 where
  updateWindowDims := [1]
  insertedWindowDims := [0]
  scatterDimsToOperandDims := [0]
  indexVectorDim := 1
  wf := scatter_S50000x64_S600000x1_S600000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S50000x32_S600000x1_S600000x32_1_0_n_n_0_1_132 : GatherDims S50000x32 S600000x1 S600000x32 where
  offsetDims := [1]
  collapsedSliceDims := [0]
  operandBatchingDims := []
  startIndicesBatchingDims := []
  startIndexMap := [0]
  indexVectorDim := 1
  sliceSizes := ![1, 32]
  wf := gather_S50000x32_S600000x1_S600000x32_1_0_n_n_0_1_132_wf
def scatter_S50000x32_S600000x1_S600000x32_1_0_0_1 : ScatterDims S50000x32 S600000x1 S600000x32 where
  updateWindowDims := [1]
  insertedWindowDims := [0]
  scatterDimsToOperandDims := [0]
  indexVectorDim := 1
  wf := scatter_S50000x32_S600000x1_S600000x32_1_0_0_1_wf
def dot_S10000x32_S32x128_S10000x128_1_0_0_1_n_n : DotDims S10000x32 S32x128 S10000x128 where
  lhsContracting := [1]
  rhsContracting := [0]
  lhsNonContracting := [0]
  rhsNonContracting := [1]
  lhsBatch := []
  rhsBatch := []
  wf := dot_S10000x32_S32x128_S10000x128_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v23) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v25) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v26) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v36) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg5) S64x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v37) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v38) S10000x32.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v38) S10000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v10) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v39) S10000x32.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v49) S10000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v12) S10000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg7) S32x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v50) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v51) S10000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S50000x128 : Shape := ⟨2, ![50000, 128]⟩
abbrev S600000 : Shape := ⟨1, ![600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x128 : Shape := ⟨2, ![32, 128]⟩
abbrev S128 : Shape := ⟨1, ![128]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S50000x64 : Shape := ⟨2, ![50000, 64]⟩
abbrev S1x64 : Shape := ⟨2, ![1, 64]⟩
abbrev S600000x64 : Shape := ⟨2, ![600000, 64]⟩
abbrev S50000x32 : Shape := ⟨2, ![50000, 32]⟩
abbrev S1x32 : Shape := ⟨2, ![1, 32]⟩
abbrev S600000x32 : Shape := ⟨2, ![600000, 32]⟩
abbrev S1x128 : Shape := ⟨2, ![1, 128]⟩

abbrev nBuf : Space → Nat
  | .hbm => 141
  | .vmem => 0
  | .smem => 0
  | _ => 0

abbrev hbmTy0_0 (i : Nat) : BufTy := match i % 128 with
  | 0 => ⟨S50000x128, .f32⟩
  | 1 => ⟨S600000, .i32⟩
  | 2 => ⟨S600000, .i32⟩
  | 3 => ⟨S128x64, .f32⟩
  | 4 => ⟨S64, .f32⟩
  | 5 => ⟨S64x32, .f32⟩
  | 6 => ⟨S32, .f32⟩
  | 7 => ⟨S32x128, .f32⟩
  | 8 => ⟨S128, .f32⟩
  | 9 => ⟨S_, .f32⟩
  | 10 => ⟨S600000, .f32⟩
  | 11 => ⟨S_, .f32⟩
  | 12 => ⟨S50000, .f32⟩
  | 13 => ⟨S600000x1, .i32⟩
  | 14 => ⟨S50000, .f32⟩
  | 15 => ⟨S_, .f32⟩
  | 16 => ⟨S_, .f32⟩
  | 17 => ⟨S50000, .f32⟩
  | 18 => ⟨S50000, .f32⟩
  | 19 => ⟨S_, .f32⟩
  | 20 => ⟨S50000, .f32⟩
  | 21 => ⟨S600000x1, .i32⟩
  | 22 => ⟨S50000, .f32⟩
  | 23 => ⟨S_, .f32⟩
  | 24 => ⟨S_, .f32⟩
  | 25 => ⟨S50000, .f32⟩
  | 26 => ⟨S50000, .f32⟩
  | 27 => ⟨S50000, .f32⟩
  | 28 => ⟨S50000x1, .f32⟩
  | 29 => ⟨S50000x128, .f32⟩
  | 30 => ⟨S50000x128, .f32⟩
  | 31 => ⟨S_, .i32⟩
  | 32 => ⟨S600000, .i32⟩
  | 33 => ⟨S600000, .i1⟩
  | 34 => ⟨S_, .i32⟩
  | 35 => ⟨S600000, .i32⟩
  | 36 => ⟨S600000, .i32⟩
  | 37 => ⟨S600000, .i32⟩
  | 38 => ⟨S600000x1, .i32⟩
  | 39 => ⟨S600000x128, .f32⟩
  | 40 => ⟨S_, .f32⟩
  | 41 => ⟨S50000x128, .f32⟩
  | 42 => ⟨S600000x1, .i32⟩
  | 43 => ⟨S50000x128, .f32⟩
  | 44 => ⟨S50000, .f32⟩
  | 45 => ⟨S50000x1, .f32⟩
  | 46 => ⟨S50000x128, .f32⟩
  | 47 => ⟨S50000x128, .f32⟩
  | 48 => ⟨S50000x64, .f32⟩
  | 49 => ⟨S1x64, .f32⟩
  | 50 => ⟨S50000x64, .f32⟩
  | 51 => ⟨S50000x64, .f32⟩
  | 52 => ⟨S_, .f32⟩
  | 53 => ⟨S50000x64, .f32⟩
  | 54 => ⟨S50000x64, .f32⟩
  | 55 => ⟨S_, .f32⟩
  | 56 => ⟨S600000, .f32⟩
  | 57 => ⟨S_, .f32⟩
  | 58 => ⟨S50000, .f32⟩
  | 59 => ⟨S600000x1, .i32⟩
  | 60 => ⟨S50000, .f32⟩
  | 61 => ⟨S_, .f32⟩
  | 62 => ⟨S_, .f32⟩
  | 63 => ⟨S50000, .f32⟩
  | 64 => ⟨S50000, .f32⟩
  | 65 => ⟨S_, .f32⟩
  | 66 => ⟨S50000, .f32⟩
  | 67 => ⟨S600000x1, .i32⟩
  | 68 => ⟨S50000, .f32⟩
  | 69 => ⟨S_, .f32⟩
  | 70 => ⟨S_, .f32⟩
  | 71 => ⟨S50000, .f32⟩
  | 72 => ⟨S50000, .f32⟩
  | 73 => ⟨S50000, .f32⟩
  | 74 => ⟨S50000x1, .f32⟩
  | 75 => ⟨S50000x64, .f32⟩
  | 76 => ⟨S50000x64, .f32⟩
  | 77 => ⟨S_, .i32⟩
  | 78 => ⟨S600000, .i32⟩
  | 79 => ⟨S600000, .i1⟩
  | 80 => ⟨S_, .i32⟩
  | 81 => ⟨S600000, .i32⟩
  | 82 => ⟨S600000, .i32⟩
  | 83 => ⟨S600000, .i32⟩
  | 84 => ⟨S600000x1, .i32⟩
  | 85 => ⟨S600000x64, .f32⟩
  | 86 => ⟨S_, .f32⟩
  | 87 => ⟨S50000x64, .f32⟩
  | 88 => ⟨S600000x1, .i32⟩
  | 89 => ⟨S50000x64, .f32⟩
  | 90 => ⟨S50000, .f32⟩
  | 91 => ⟨S50000x1, .f32⟩
  | 92 => ⟨S50000x64, .f32⟩
  | 93 => ⟨S50000x64, .f32⟩
  | 94 => ⟨S50000x32, .f32⟩
  | 95 => ⟨S1x32, .f32⟩
  | 96 => ⟨S50000x32, .f32⟩
  | 97 => ⟨S50000x32, .f32⟩
  | 98 => ⟨S_, .f32⟩
  | 99 => ⟨S600000, .f32⟩
  | 100 => ⟨S_, .f32⟩
  | 101 => ⟨S50000, .f32⟩
  | 102 => ⟨S600000x1, .i32⟩
  | 103 => ⟨S50000, .f32⟩
  | 104 => ⟨S_, .f32⟩
  | 105 => ⟨S_, .f32⟩
  | 106 => ⟨S50000, .f32⟩
  | 107 => ⟨S50000, .f32⟩
  | 108 => ⟨S_, .f32⟩
  | 109 => ⟨S50000, .f32⟩
  | 110 => ⟨S600000x1, .i32⟩
  | 111 => ⟨S50000, .f32⟩
  | 112 => ⟨S_, .f32⟩
  | 113 => ⟨S_, .f32⟩
  | 114 => ⟨S50000, .f32⟩
  | 115 => ⟨S50000, .f32⟩
  | 116 => ⟨S50000, .f32⟩
  | 117 => ⟨S50000x1, .f32⟩
  | 118 => ⟨S50000x32, .f32⟩
  | 119 => ⟨S50000x32, .f32⟩
  | 120 => ⟨S_, .i32⟩
  | 121 => ⟨S600000, .i32⟩
  | 122 => ⟨S600000, .i1⟩
  | 123 => ⟨S_, .i32⟩
  | 124 => ⟨S600000, .i32⟩
  | 125 => ⟨S600000, .i32⟩
  | 126 => ⟨S600000, .i32⟩
  | 127 => ⟨S600000x1, .i32⟩
  | _ => ⟨S50000x128, .f32⟩

abbrev hbmTy0_1 (i : Nat) : BufTy := match i % 128 with
  | 0 => ⟨S600000x32, .f32⟩
  | 1 => ⟨S_, .f32⟩
  | 2 => ⟨S50000x32, .f32⟩
  | 3 => ⟨S600000x1, .i32⟩
  | 4 => ⟨S50000x32, .f32⟩
  | 5 => ⟨S50000, .f32⟩
  | 6 => ⟨S50000x1, .f32⟩
  | 7 => ⟨S50000x32, .f32⟩
  | 8 => ⟨S50000x32, .f32⟩
  | 9 => ⟨S50000x128, .f32⟩
  | 10 => ⟨S1x128, .f32⟩
  | 11 => ⟨S50000x128, .f32⟩
  | 12 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_4 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_5 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_call2_cst : Ref sig .tc := ⟨.hbm, 52, rfl⟩
abbrev main_call2_v0 : Ref sig .tc := ⟨.hbm, 53, rfl⟩
abbrev main_v31 : Ref sig .tc := ⟨.hbm, 54, rfl⟩
abbrev main_cst_6 : Ref sig .tc := ⟨.hbm, 55, rfl⟩
abbrev main_v32 : Ref sig .tc := ⟨.hbm, 56, rfl⟩
abbrev main_cst_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_8 : Ref sig .tc := ⟨.hbm, 61, rfl⟩
abbrev main_call3_v0 : Ref sig .tc := ⟨.hbm, 62, rfl⟩
abbrev main_call3_v1 : Ref sig .tc := ⟨.hbm, 63, rfl⟩
abbrev main_v36 : Ref sig .tc := ⟨.hbm, 64, rfl⟩
abbrev main_cst_9 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_10 : Ref sig .tc := ⟨.hbm, 69, rfl⟩
abbrev main_call4_v0 : Ref sig .tc := ⟨.hbm, 70, rfl⟩
abbrev main_call4_v1 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_c_11 : Ref sig .tc := ⟨.hbm, 77, rfl⟩
abbrev main_v45 : Ref sig .tc := ⟨.hbm, 78, rfl⟩
abbrev main_v46 : Ref sig .tc := ⟨.hbm, 79, rfl⟩
abbrev main_c_12 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_cst_13 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_14 : Ref sig .tc := ⟨.hbm, 98, rfl⟩
abbrev main_v63 : Ref sig .tc := ⟨.hbm, 99, rfl⟩
abbrev main_cst_15 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_16 : Ref sig .tc := ⟨.hbm, 104, rfl⟩
abbrev main_call5_v0 : Ref sig .tc := ⟨.hbm, 105, rfl⟩
abbrev main_call5_v1 : Ref sig .tc := ⟨.hbm, 106, rfl⟩
abbrev main_v67 : Ref sig .tc := ⟨.hbm, 107, rfl⟩
abbrev main_cst_17 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_cst_18 : Ref sig .tc := ⟨.hbm, 112, rfl⟩
abbrev main_call6_v0 : Ref sig .tc := ⟨.hbm, 113, rfl⟩
abbrev main_call6_v1 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_c_19 : Ref sig .tc := ⟨.hbm, 120, rfl⟩
abbrev main_v76 : Ref sig .tc := ⟨.hbm, 121, rfl⟩
abbrev main_v77 : Ref sig .tc := ⟨.hbm, 122, rfl⟩
abbrev main_c_20 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_cst_21 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S50000x1_S50000x32_0_1 : S50000x1.BroadcastsInDim S50000x32 (![0, 1] : Fin 2 → Fin S50000x32.rank)
  bcast_S_S50000x32 : S_.BroadcastsInDim S50000x32 (![] : Fin 0 → Fin S50000x32.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x64_S50000x64_1_0_0_1_n_n_wf : DotDims.WF S50000x128 S128x64 S50000x64 [1] [0] [0] [1] [] []
  gather_S50000x64_S600000x1_S600000x64_1_0_n_n_0_1_164_wf : GatherDims.WF S50000x64 S600000x1 S600000x64 [1] [0] [] [0] [] 1 ![1, 64]
  scatter_S50000x64_S600000x1_S600000x64_1_0_0_1_wf : ScatterDims.WF S50000x64 S600000x1 S600000x64 [1] [0] [0] 1
  dot_S50000x64_S64x32_S50000x32_1_0_0_1_n_n_wf : DotDims.WF S50000x64 S64x32 S50000x32 [1] [0] [0] [1] [] []
  gather_S50000x32_S600000x1_S600000x32_1_0_n_n_0_1_132_wf : GatherDims.WF S50000x32 S600000x1 S600000x32 [1] [0] [] [0] [] 1 ![1, 32]
  scatter_S50000x32_S600000x1_S600000x32_1_0_0_1_wf : ScatterDims.WF S50000x32 S600000x1 S600000x32 [1] [0] [0] 1
  dot_S50000x32_S32x128_S50000x128_1_0_0_1_n_n_wf : DotDims.WF S50000x32 S32x128 S50000x128 [1] [0] [0] [1] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S600000x1_S600000x64_1_0_n_n_0_1_164 : GatherDims S50000x64 S600000x1 S600000x64 where
  offsetDims := [1]
  collapsedSliceDims := [0]
  operandBatchingDims := []
  startIndicesBatchingDims := []
  startIndexMap := [0]
  indexVectorDim := 1
  sliceSizes := ![1, 64]
  wf := gather_S50000x64_S600000x1_S600000x64_1_0_n_n_0_1_164_wf
def scatter_S50000x64_S600000x1_S600000x64_1_0_0_1 : ScatterDims S50000x64 S600000x1 S600000x64 where
  updateWindowDims := [1]
  insertedWindowDims := [0]
  scatterDimsToOperandDims := [0]
  indexVectorDim := 1
  wf := scatter_S50000x64_S600000x1_S600000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x32_S600000x1_S600000x32_1_0_n_n_0_1_132 : GatherDims S50000x32 S600000x1 S600000x32 where
  offsetDims := [1]
  collapsedSliceDims := [0]
  operandBatchingDims := []
  startIndicesBatchingDims := []
  startIndexMap := [0]
  indexVectorDim := 1
  sliceSizes := ![1, 32]
  wf := gather_S50000x32_S600000x1_S600000x32_1_0_n_n_0_1_132_wf
def scatter_S50000x32_S600000x1_S600000x32_1_0_0_1 : ScatterDims S50000x32 S600000x1 S600000x32 where
  updateWindowDims := [1]
  insertedWindowDims := [0]
  scatterDimsToOperandDims := [0]
  indexVectorDim := 1
  wf := scatter_S50000x32_S600000x1_S600000x32_1_0_0_1_wf
def dot_S50000x32_S32x128_S50000x128_1_0_0_1_n_n : DotDims S50000x32 S32x128 S50000x128 where
  lhsContracting := [1]
  rhsContracting := [0]
  lhsNonContracting := [0]
  rhsNonContracting := [1]
  lhsBatch := []
  rhsBatch := []
  wf := dot_S50000x32_S32x128_S50000x128_1_0_0_1_n_n_wf

class Facts : Prop extends Facts₀ where

variable [Facts]
-- ==== Proof.KernelRun.lean ====
/-
  The idealized kernel program's run with its two results named.

  The program is fourteen segments: eight stretches of host operations and six pipelined regions. The buffer contents
  at each boundary are a fold from the launch memory (the generated names `W0 … W14`): a host stretch applies its
  operations, a region replaces its arrays by what its write-backs leave. Every weakly fair execution terminates
  without a fault, and every unscoped buffer ends at the last stage of that fold; here that is read at the two result
  buffers (the embedding after the second layer and the reconstruction after the third) as well as at the arguments.
-/
import proofs.«118983_j69097433858683_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the two result buffers end at the
    last stage of the fold of buffer contents through the program's segments, and the argument arrays end as
    launched. -/
theorem run_values : θ_run defs (onTc (τ := τ) (main (F := F))) ⟨m, fun _ => 0, ρ⟩ (fun r => ∀ c : Dev nD,
      r.2.mem ((c.tc : Thread nD τ).loc main_v38) = W14 m ρ c (Proc.devRef .tc main_v38)
      ∧ r.2.mem ((c.tc : Thread nD τ).loc main_v51) = W14 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v38 (by decide)),
       h c _ (mem_uc main_v51 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c)⟩)

end Cert.KernelIdeal.Run

end
-- ==== Proof.Spec.lean ====
/-
  The two dense stages of one graph-convolution layer, as functions of whole arrays over the extended reals.

  A layer is  D_out^(-1/2) · A · D_in^(-1/2) · x · W + b  computed in three steps: every row of the node-feature matrix
  is scaled by that node's entry of a column vector (`scaleRows`), the scaled rows are gathered along the edges and
  summed per destination node (host operations, the same on both sides, never opened), and the aggregated rows are scaled
  again, multiplied by the weight matrix and shifted by the bias (`affine`), optionally clamped below at zero (`relu`).
  Both programs are shown to compute these functions; nothing here depends on either program's text.
-/
import Idealize.ShloMosaic.PureOps.Ideal
import Idealize.ShloMosaic.Lib.ValueIdx

noncomputable section

open scoped BigOperators

namespace Cert.GraphConv

open Idealize.ShloMosaic Idealize.ShloMosaic.ValueIdx

/-- A matrix with `a` rows and `b` columns of extended reals. -/
abbrev Mat (a b : Nat) : Type := (⟨2, ![a, b]⟩ : Shape).Idx → EReal

/-- A vector of `n` extended reals. -/
abbrev Vec1 (n : Nat) : Type := (⟨1, ![n]⟩ : Shape).Idx → EReal

/-- Row `i` of `x` multiplied by the `i`-th entry of the column `s`:  out[i, j] = x[i, j] · s[i, 0]. -/
def scaleRows {a b : Nat} (x : Mat a b) (s : Mat a 1) : Mat a b :=
  fun i => x i * s (ix2 (i 0) 0)

/-- The scaled rows times the weights, plus the bias row:
    out[i, j] = (Σ_q (x[i, q] · s[i, 0]) · W[q, j]) + bias[0, j]. -/
def affine {a k b : Nat} (x : Mat a k) (s : Mat a 1) (W : Mat k b) (bias : Mat 1 b) : Mat a b :=
  fun i => (∑ q : Fin k, (x (ix2 (i 0) q) * s (ix2 (i 0) 0)) * W (ix2 q (i 1))) + bias (ix2 0 (i 1))

/-- Every entry clamped below at zero. -/
def relu {a b : Nat} (x : Mat a b) : Mat a b := fun i => max (x i) 0

/-- A vector laid out as the single row of a matrix. -/
def rowOf {n : Nat} (v : Vec1 n) : Mat 1 n := fun i => v (ix1 (i 1))

theorem scaleRows_apply {a b : Nat} (x : Mat a b) (s : Mat a 1) (i : (⟨2, ![a, b]⟩ : Shape).Idx) :
    scaleRows x s i = x i * s (ix2 (i 0) 0) := rfl

theorem affine_apply {a k b : Nat} (x : Mat a k) (s : Mat a 1) (W : Mat k b) (bias : Mat 1 b)
    (i : (⟨2, ![a, b]⟩ : Shape).Idx) :
    affine x s W bias i = (∑ q : Fin k, (x (ix2 (i 0) q) * s (ix2 (i 0) 0)) * W (ix2 q (i 1))) + bias (ix2 0 (i 1)) := rfl

theorem relu_apply {a b : Nat} (x : Mat a b) (i : (⟨2, ![a, b]⟩ : Shape).Idx) : relu x i = max (x i) 0 := rfl

theorem rowOf_apply {n : Nat} (v : Vec1 n) (i : (⟨2, ![1, n]⟩ : Shape).Idx) : rowOf v i = v (ix1 (i 1)) := rfl

end Cert.GraphConv

end
-- ==== Proof.HostStages.lean ====
/-
  The host operations the two programs share, and the three layers as functions of the argument arrays.

  Both programs compute the node degrees by scattering ones along the edge endpoint lists, clamp them below at one,
  take the reciprocal square root and lay it out as a column (`invSqrtDeg`); gather the scaled rows along the source
  endpoints, with a negative endpoint wrapped by the number of nodes as jax's indexing does (`rowIdx`), and sum them
  per destination endpoint into a zero matrix (`aggregate…`). These operations are the same text in both programs
  and are never opened: a layer is the dense stages of the specification composed with them.
-/
import proofs.«118983_j69097433858683_1_alg».proof.Proof.Gen.ReferenceIdeal
import proofs.«118983_j69097433858683_1_alg».proof.Proof.Spec

noncomputable section

namespace Cert.GraphConv

open Cert.ReferenceIdeal Cert.ReferenceIdeal.Facts₀ Idealize.ShloMosaic

/-- An edge endpoint list: one 32-bit word per edge. -/
abbrev Ends : Type := (⟨S600000, .i32⟩ : BufTy).Contents (Elt Ideal)

/-- The column of  1 / sqrt(max(1, deg))  where deg counts the edges whose endpoint in `idx` is the node. -/
def invSqrtDeg (idx : Ends) : (⟨S50000x1, .f32⟩ : BufTy).Contents (Elt Ideal) :=
  broadcastInDim S50000x1 ![0] bcast_S50000_S50000x1_0
    (Host.rsqrt (F := Ideal)
      (maximumf (F := Ideal) (broadcastInDim S50000 ![] bcast_S_S50000 (id (constant (F := Ideal) S_ .f32 0x3F800000#32)))
        (Host.scatterAdd (F := Ideal) scatter_S50000_S600000x1_S600000_n_0_0_1
          (broadcastInDim S50000 ![] bcast_S_S50000 (constant (F := Ideal) S_ .f32 0x00000000#32))
          (broadcastInDim S600000x1 ![0] bcast_S600000_S600000x1_0 idx)
          (broadcastInDim S600000 ![] bcast_S_S600000 (constant (F := Ideal) S_ .f32 0x3F800000#32)))))

/-- The gather's start indices: each source endpoint, a negative one wrapped by 50000, as a column of words. -/
def rowIdx (src : Ends) : (⟨S600000x1, .i32⟩ : BufTy).Contents (Elt Ideal) :=
  broadcastInDim S600000x1 ![0] bcast_S600000_S600000x1_0
    (select (cmpi .slt src (broadcastInDim S600000 ![] bcast_S_S600000 (constantI S_ 32 0#32)))
      (addi src (broadcastInDim S600000 ![] bcast_S_S600000 (constantI S_ 32 50000#32))) src)

/-- Rows of `h` gathered along the source endpoints and summed per destination endpoint, width 128. -/
def aggregate128 (h : (⟨S50000x128, .f32⟩ : BufTy).Contents (Elt Ideal)) (src dst : Ends) :
    (⟨S50000x128, .f32⟩ : BufTy).Contents (Elt Ideal) :=
  Host.scatterAdd (F := Ideal) scatter_S50000x128_S600000x1_S600000x128_1_0_0_1
    (broadcastInDim S50000x128 ![] bcast_S_S50000x128 (constant (F := Ideal) S_ .f32 0x00000000#32))
    (broadcastInDim S600000x1 ![0] bcast_S600000_S600000x1_0 dst)
    (Host.gather gather_S50000x128_S600000x1_S600000x128_1_0_n_n_0_1_1128 h (rowIdx src))

/-- The same at width 64. -/
def aggregate64 (h : (⟨S50000x64, .f32⟩ : BufTy).Contents (Elt Ideal)) (src dst : Ends) :
    (⟨S50000x64, .f32⟩ : BufTy).Contents (Elt Ideal) :=
  Host.scatterAdd (F := Ideal) scatter_S50000x64_S600000x1_S600000x64_1_0_0_1
    (broadcastInDim S50000x64 ![] bcast_S_S50000x64 (constant (F := Ideal) S_ .f32 0x00000000#32))
    (broadcastInDim S600000x1 ![0] bcast_S600000_S600000x1_0 dst)
    (Host.gather gather_S50000x64_S600000x1_S600000x64_1_0_n_n_0_1_164 h (rowIdx src))

/-- The same at width 32. -/
def aggregate32 (h : (⟨S50000x32, .f32⟩ : BufTy).Contents (Elt Ideal)) (src dst : Ends) :
    (⟨S50000x32, .f32⟩ : BufTy).Contents (Elt Ideal) :=
  Host.scatterAdd (F := Ideal) scatter_S50000x32_S600000x1_S600000x32_1_0_0_1
    (broadcastInDim S50000x32 ![] bcast_S_S50000x32 (constant (F := Ideal) S_ .f32 0x00000000#32))
    (broadcastInDim S600000x1 ![0] bcast_S600000_S600000x1_0 dst)
    (Host.gather gather_S50000x32_S600000x1_S600000x32_1_0_n_n_0_1_132 h (rowIdx src))

/-- The first layer, 128 → 64 features, clamped at zero. -/
def layer1 (x : Mat 50000 128) (src dst : Ends) (W : Mat 128 64) (b : Vec1 64) : Mat 50000 64 :=
  relu (affine (aggregate128 (scaleRows x (invSqrtDeg src)) src dst) (invSqrtDeg dst) W (rowOf b))

/-- The second layer, 64 → 32 features. -/
def layer2 (h : Mat 50000 64) (src dst : Ends) (W : Mat 64 32) (b : Vec1 32) : Mat 50000 32 :=
  affine (aggregate64 (scaleRows h (invSqrtDeg src)) src dst) (invSqrtDeg dst) W (rowOf b)

/-- The third layer, 32 → 128 features. -/
def layer3 (z : Mat 50000 32) (src dst : Ends) (W : Mat 32 128) (b : Vec1 128) : Mat 50000 128 :=
  affine (aggregate32 (scaleRows z (invSqrtDeg src)) src dst) (invSqrtDeg dst) W (rowOf b)

/-- The first result: the embedding after two layers. -/
def embedding (x : Mat 50000 128) (src dst : Ends) (W1 : Mat 128 64) (b1 : Vec1 64) (W2 : Mat 64 32) (b2 : Vec1 32) :
    Mat 50000 32 :=
  layer2 (layer1 x src dst W1 b1) src dst W2 b2

/-- The second result: the third layer applied to the embedding. -/
def reconstruction (x : Mat 50000 128) (src dst : Ends) (W1 : Mat 128 64) (b1 : Vec1 64) (W2 : Mat 64 32) (b2 : Vec1 32)
    (W3 : Mat 32 128) (b3 : Vec1 128) : Mat 50000 128 :=
  layer3 (embedding x src dst W1 b1 W2 b2) src dst W3 b3

end Cert.GraphConv

end
-- ==== Proof.RefStages.lean ====
/-
  The dense stages of the reference program, as pure terms over the extended reals, are the specification's functions:
  a column broadcast along the rows followed by an elementwise product is the row scaling; a contraction of the scaled
  rows with the weights plus the bias broadcast down the rows is the affine map; a maximum with the broadcast zero is
  the clamp; and a vector reshaped or broadcast to one row is that row.
-/
import proofs.«118983_j69097433858683_1_alg».proof.Proof.Gen.ReferenceIdeal
import proofs.«118983_j69097433858683_1_alg».proof.Proof.Spec
import Idealize.ShloMosaic.Lib.ValueIdx
import Idealize.ShloMosaic.Lib.ValueLayout
import Idealize.ShloMosaic.PureOps.Ideal.Laws

noncomputable section

open scoped BigOperators

namespace Cert.ReferenceIdeal.Stages

open Cert.ReferenceIdeal Cert.GraphConv Idealize.ShloMosaic Idealize.ShloMosaic.ValueIdx
open Cert.ReferenceIdeal.Facts₀

/-- A column broadcast along the rows reads, at (p, q), the column's entry (p, 0). -/
theorem bcastCol_apply {n : Nat} (h : S50000x1.BroadcastsInDim (⟨2, ![50000, n]⟩ : Shape) (![0, 1] : Fin 2 → Fin 2))
    (s : FVec Ideal S50000x1 .f32) (i : (⟨2, ![50000, n]⟩ : Shape).Idx) :
    broadcastInDim (⟨2, ![50000, n]⟩ : Shape) ![0, 1] h s i = s (ix2 (i 0) 0) :=
  broadcastInDim_apply _ h s i (ix2 (i 0) 0) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])

/-- A single row broadcast down the rows reads, at (p, q), the row's entry (0, q). -/
theorem bcastRow_apply {m n : Nat} (hn : n ≠ 1)
    (h : (⟨2, ![1, n]⟩ : Shape).BroadcastsInDim (⟨2, ![m, n]⟩ : Shape) (![0, 1] : Fin 2 → Fin 2))
    (r : FVec Ideal (⟨2, ![1, n]⟩ : Shape) .f32) (i : (⟨2, ![m, n]⟩ : Shape).Idx) :
    broadcastInDim (⟨2, ![m, n]⟩ : Shape) ![0, 1] h r i = r (ix2 0 (i 1)) :=
  broadcastInDim_apply _ h r i (ix2 0 (i 1)) (fun a => match a with
    | ⟨0, _⟩ => by show 0 = if (1 : Nat) = 1 then 0 else (i 0).val; rw [if_pos rfl]
    | ⟨1, _⟩ => by show (i 1).val = if n = 1 then 0 else (i 1).val; rw [if_neg hn])

/-- A vector broadcast to a single row reads, at (0, q), the vector's entry q: it is `rowOf` of the vector. -/
theorem bcastVecRow {n : Nat} (hn : n ≠ 1)
    (h : (⟨1, ![n]⟩ : Shape).BroadcastsInDim (⟨2, ![1, n]⟩ : Shape) (![1] : Fin 1 → Fin 2))
    (b : FVec Ideal (⟨1, ![n]⟩ : Shape) .f32) :
    broadcastInDim (⟨2, ![1, n]⟩ : Shape) ![1] h b = rowOf b := by
  funext i
  rw [rowOf_apply]
  exact broadcastInDim_apply _ h b i (ix1 (i 1)) (fun a => match a with
    | ⟨0, _⟩ => by show (i 1).val = if n = 1 then 0 else (i 1).val; rw [if_neg hn])

theorem mulf_bcastCol128 (x : FVec Ideal S50000x128 .f32) (s : FVec Ideal S50000x1 .f32) :
    mulf x (broadcastInDim S50000x128 ![0, 1] bcast_S50000x1_S50000x128_0_1 s) = scaleRows x s := by
  funext i
  rw [mulf_apply, scaleRows_apply]
  exact congrArg (x i * ·) (bcastCol_apply bcast_S50000x1_S50000x128_0_1 s i)

theorem mulf_bcastCol64 (x : FVec Ideal S50000x64 .f32) (s : FVec Ideal S50000x1 .f32) :
    mulf x (broadcastInDim S50000x64 ![0, 1] bcast_S50000x1_S50000x64_0_1 s) = scaleRows x s := by
  funext i
  rw [mulf_apply, scaleRows_apply]
  exact congrArg (x i * ·) (bcastCol_apply bcast_S50000x1_S50000x64_0_1 s i)

theorem mulf_bcastCol32 (x : FVec Ideal S50000x32 .f32) (s : FVec Ideal S50000x1 .f32) :
    mulf x (broadcastInDim S50000x32 ![0, 1] bcast_S50000x1_S50000x32_0_1 s) = scaleRows x s := by
  funext i
  rw [mulf_apply, scaleRows_apply]
  exact congrArg (x i * ·) (bcastCol_apply bcast_S50000x1_S50000x32_0_1 s i)

/-! ### The [50000, 128] × [128, 64] contraction -/

/-- The left operand's row coordinate is the output's row. -/
theorem lhs128x64_0 (i : S50000x64.Idx) (c : dot_S50000x128_S128x64_S50000x64_1_0_0_1_n_n.contr.Idx) :
    (dot_S50000x128_S128x64_S50000x64_1_0_0_1_n_n.lhsIdx i c 0).val = (i 0).val := by
  unfold DotDims.lhsIdx
  rw [dif_neg (show ¬(0 : Fin S50000x128.rank) ∈ dot_S50000x128_S128x64_S50000x64_1_0_0_1_n_n.lhsBatch from List.not_mem_nil),
    dif_pos (show (0 : Fin S50000x128.rank) ∈ dot_S50000x128_S128x64_S50000x64_1_0_0_1_n_n.lhsNonContracting from List.mem_singleton.mpr rfl)]
  rfl

/-- The right operand's column coordinate is the output's column. -/
theorem rhs128x64_1 (i : S50000x64.Idx) (c : dot_S50000x128_S128x64_S50000x64_1_0_0_1_n_n.contr.Idx) :
    (dot_S50000x128_S128x64_S50000x64_1_0_0_1_n_n.rhsIdx i c 1).val = (i 1).val := by
  unfold DotDims.rhsIdx
  rw [dif_neg (show ¬(1 : Fin S128x64.rank) ∈ dot_S50000x128_S128x64_S50000x64_1_0_0_1_n_n.rhsBatch from List.not_mem_nil),
    dif_pos (show (1 : Fin S128x64.rank) ∈ dot_S50000x128_S128x64_S50000x64_1_0_0_1_n_n.rhsNonContracting from List.mem_singleton.mpr rfl)]
  rfl

/-- The contraction of a [50000, 128] array with a [128, 64] one, at (p, q), is the sum over the shared axis. -/
theorem dot128x64_apply (y : FVec Ideal S50000x128 .f32) (W : FVec Ideal S128x64 .f32) (i : S50000x64.Idx) :
    Host.dotGeneral (F := Ideal) dot_S50000x128_S128x64_S50000x64_1_0_0_1_n_n none y W i
      = ∑ q : Fin 128, y (ix2 (i 0) q) * W (ix2 q (i 1)) := by
  simp only [Host.dotGeneral]
  rw [Ideal.dotGeneral_apply, ← Equiv.sum_comp (contrEquiv1 dot_S50000x128_S128x64_S50000x64_1_0_0_1_n_n 128 rfl rfl).symm]
  refine Finset.sum_congr rfl fun q _ => ?_
  have hq := contrEquiv1_symm_val dot_S50000x128_S128x64_S50000x64_1_0_0_1_n_n 128 rfl rfl q
  have el : dot_S50000x128_S128x64_S50000x64_1_0_0_1_n_n.lhsIdx i ((contrEquiv1 dot_S50000x128_S128x64_S50000x64_1_0_0_1_n_n 128 rfl rfl).symm q) = ix2 (i 0) q :=
    funext fun a => Fin.ext (by
      match a with
      | ⟨0, _⟩ => exact lhs128x64_0 _ _
      | ⟨1, _⟩ => exact ((dot_S50000x128_S128x64_S50000x64_1_0_0_1_n_n).lhsIdx_val_of_single rfl i _).trans hq)
  have er : dot_S50000x128_S128x64_S50000x64_1_0_0_1_n_n.rhsIdx i ((contrEquiv1 dot_S50000x128_S128x64_S50000x64_1_0_0_1_n_n 128 rfl rfl).symm q) = ix2 q (i 1) :=
    funext fun a => Fin.ext (by
      match a with
      | ⟨0, _⟩ => exact ((dot_S50000x128_S128x64_S50000x64_1_0_0_1_n_n).rhsIdx_val_of_single rfl i _).trans hq
      | ⟨1, _⟩ => exact rhs128x64_1 _ _)
  exact congrArg₂ (fun u v => y u * W v) el er

theorem dot_bias128x64 (x : FVec Ideal S50000x128 .f32) (s : FVec Ideal S50000x1 .f32) (W : FVec Ideal S128x64 .f32) (b : FVec Ideal S64 .f32) :
    addf (Host.dotGeneral (F := Ideal) (φ₁ := .f32) dot_S50000x128_S128x64_S50000x64_1_0_0_1_n_n none (scaleRows x s) W)
         (broadcastInDim S50000x64 ![0, 1] bcast_S1x64_S50000x64_0_1 (broadcastInDim S1x64 ![1] bcast_S64_S1x64_1 b))
      = affine x s W (rowOf b) := by
  funext i
  rw [addf_apply, affine_apply, dot128x64_apply, bcastVecRow (by decide) bcast_S64_S1x64_1 b,
    bcastRow_apply (by decide) bcast_S1x64_S50000x64_0_1 (rowOf b) i]
  rfl

/-! ### The [50000, 64] × [64, 32] contraction -/

/-- The left operand's row coordinate is the output's row. -/
theorem lhs64x32_0 (i : S50000x32.Idx) (c : dot_S50000x64_S64x32_S50000x32_1_0_0_1_n_n.contr.Idx) :
    (dot_S50000x64_S64x32_S50000x32_1_0_0_1_n_n.lhsIdx i c 0).val = (i 0).val := by
  unfold DotDims.lhsIdx
  rw [dif_neg (show ¬(0 : Fin S50000x64.rank) ∈ dot_S50000x64_S64x32_S50000x32_1_0_0_1_n_n.lhsBatch from List.not_mem_nil),
    dif_pos (show (0 : Fin S50000x64.rank) ∈ dot_S50000x64_S64x32_S50000x32_1_0_0_1_n_n.lhsNonContracting from List.mem_singleton.mpr rfl)]
  rfl

/-- The right operand's column coordinate is the output's column. -/
theorem rhs64x32_1 (i : S50000x32.Idx) (c : dot_S50000x64_S64x32_S50000x32_1_0_0_1_n_n.contr.Idx) :
    (dot_S50000x64_S64x32_S50000x32_1_0_0_1_n_n.rhsIdx i c 1).val = (i 1).val := by
  unfold DotDims.rhsIdx
  rw [dif_neg (show ¬(1 : Fin S64x32.rank) ∈ dot_S50000x64_S64x32_S50000x32_1_0_0_1_n_n.rhsBatch from List.not_mem_nil),
    dif_pos (show (1 : Fin S64x32.rank) ∈ dot_S50000x64_S64x32_S50000x32_1_0_0_1_n_n.rhsNonContracting from List.mem_singleton.mpr rfl)]
  rfl

/-- The contraction of a [50000, 64] array with a [64, 32] one, at (p, q), is the sum over the shared axis. -/
theorem dot64x32_apply (y : FVec Ideal S50000x64 .f32) (W : FVec Ideal S64x32 .f32) (i : S50000x32.Idx) :
    Host.dotGeneral (F := Ideal) dot_S50000x64_S64x32_S50000x32_1_0_0_1_n_n none y W i
      = ∑ q : Fin 64, y (ix2 (i 0) q) * W (ix2 q (i 1)) := by
  simp only [Host.dotGeneral]
  rw [Ideal.dotGeneral_apply, ← Equiv.sum_comp (contrEquiv1 dot_S50000x64_S64x32_S50000x32_1_0_0_1_n_n 64 rfl rfl).symm]
  refine Finset.sum_congr rfl fun q _ => ?_
  have hq := contrEquiv1_symm_val dot_S50000x64_S64x32_S50000x32_1_0_0_1_n_n 64 rfl rfl q
  have el : dot_S50000x64_S64x32_S50000x32_1_0_0_1_n_n.lhsIdx i ((contrEquiv1 dot_S50000x64_S64x32_S50000x32_1_0_0_1_n_n 64 rfl rfl).symm q) = ix2 (i 0) q :=
    funext fun a => Fin.ext (by
      match a with
      | ⟨0, _⟩ => exact lhs64x32_0 _ _
      | ⟨1, _⟩ => exact ((dot_S50000x64_S64x32_S50000x32_1_0_0_1_n_n).lhsIdx_val_of_single rfl i _).trans hq)
  have er : dot_S50000x64_S64x32_S50000x32_1_0_0_1_n_n.rhsIdx i ((contrEquiv1 dot_S50000x64_S64x32_S50000x32_1_0_0_1_n_n 64 rfl rfl).symm q) = ix2 q (i 1) :=
    funext fun a => Fin.ext (by
      match a with
      | ⟨0, _⟩ => exact ((dot_S50000x64_S64x32_S50000x32_1_0_0_1_n_n).rhsIdx_val_of_single rfl i _).trans hq
      | ⟨1, _⟩ => exact rhs64x32_1 _ _)
  exact congrArg₂ (fun u v => y u * W v) el er

theorem dot_bias64x32 (x : FVec Ideal S50000x64 .f32) (s : FVec Ideal S50000x1 .f32) (W : FVec Ideal S64x32 .f32) (b : FVec Ideal S32 .f32) :
    addf (Host.dotGeneral (F := Ideal) (φ₁ := .f32) dot_S50000x64_S64x32_S50000x32_1_0_0_1_n_n none (scaleRows x s) W)
         (broadcastInDim S50000x32 ![0, 1] bcast_S1x32_S50000x32_0_1 (broadcastInDim S1x32 ![1] bcast_S32_S1x32_1 b))
      = affine x s W (rowOf b) := by
  funext i
  rw [addf_apply, affine_apply, dot64x32_apply, bcastVecRow (by decide) bcast_S32_S1x32_1 b,
    bcastRow_apply (by decide) bcast_S1x32_S50000x32_0_1 (rowOf b) i]
  rfl

/-! ### The [50000, 32] × [32, 128] contraction -/

/-- The left operand's row coordinate is the output's row. -/
theorem lhs32x128_0 (i : S50000x128.Idx) (c : dot_S50000x32_S32x128_S50000x128_1_0_0_1_n_n.contr.Idx) :
    (dot_S50000x32_S32x128_S50000x128_1_0_0_1_n_n.lhsIdx i c 0).val = (i 0).val := by
  unfold DotDims.lhsIdx
  rw [dif_neg (show ¬(0 : Fin S50000x32.rank) ∈ dot_S50000x32_S32x128_S50000x128_1_0_0_1_n_n.lhsBatch from List.not_mem_nil),
    dif_pos (show (0 : Fin S50000x32.rank) ∈ dot_S50000x32_S32x128_S50000x128_1_0_0_1_n_n.lhsNonContracting from List.mem_singleton.mpr rfl)]
  rfl

/-- The right operand's column coordinate is the output's column. -/
theorem rhs32x128_1 (i : S50000x128.Idx) (c : dot_S50000x32_S32x128_S50000x128_1_0_0_1_n_n.contr.Idx) :
    (dot_S50000x32_S32x128_S50000x128_1_0_0_1_n_n.rhsIdx i c 1).val = (i 1).val := by
  unfold DotDims.rhsIdx
  rw [dif_neg (show ¬(1 : Fin S32x128.rank) ∈ dot_S50000x32_S32x128_S50000x128_1_0_0_1_n_n.rhsBatch from List.not_mem_nil),
    dif_pos (show (1 : Fin S32x128.rank) ∈ dot_S50000x32_S32x128_S50000x128_1_0_0_1_n_n.rhsNonContracting from List.mem_singleton.mpr rfl)]
  rfl

/-- The contraction of a [50000, 32] array with a [32, 128] one, at (p, q), is the sum over the shared axis. -/
theorem dot32x128_apply (y : FVec Ideal S50000x32 .f32) (W : FVec Ideal S32x128 .f32) (i : S50000x128.Idx) :
    Host.dotGeneral (F := Ideal) dot_S50000x32_S32x128_S50000x128_1_0_0_1_n_n none y W i
      = ∑ q : Fin 32, y (ix2 (i 0) q) * W (ix2 q (i 1)) := by
  simp only [Host.dotGeneral]
  rw [Ideal.dotGeneral_apply, ← Equiv.sum_comp (contrEquiv1 dot_S50000x32_S32x128_S50000x128_1_0_0_1_n_n 32 rfl rfl).symm]
  refine Finset.sum_congr rfl fun q _ => ?_
  have hq := contrEquiv1_symm_val dot_S50000x32_S32x128_S50000x128_1_0_0_1_n_n 32 rfl rfl q
  have el : dot_S50000x32_S32x128_S50000x128_1_0_0_1_n_n.lhsIdx i ((contrEquiv1 dot_S50000x32_S32x128_S50000x128_1_0_0_1_n_n 32 rfl rfl).symm q) = ix2 (i 0) q :=
    funext fun a => Fin.ext (by
      match a with
      | ⟨0, _⟩ => exact lhs32x128_0 _ _
      | ⟨1, _⟩ => exact ((dot_S50000x32_S32x128_S50000x128_1_0_0_1_n_n).lhsIdx_val_of_single rfl i _).trans hq)
  have er : dot_S50000x32_S32x128_S50000x128_1_0_0_1_n_n.rhsIdx i ((contrEquiv1 dot_S50000x32_S32x128_S50000x128_1_0_0_1_n_n 32 rfl rfl).symm q) = ix2 q (i 1) :=
    funext fun a => Fin.ext (by
      match a with
      | ⟨0, _⟩ => exact ((dot_S50000x32_S32x128_S50000x128_1_0_0_1_n_n).rhsIdx_val_of_single rfl i _).trans hq
      | ⟨1, _⟩ => exact rhs32x128_1 _ _)
  exact congrArg₂ (fun u v => y u * W v) el er

theorem dot_bias32x128 (x : FVec Ideal S50000x32 .f32) (s : FVec Ideal S50000x1 .f32) (W : FVec Ideal S32x128 .f32) (b : FVec Ideal S128 .f32) :
    addf (Host.dotGeneral (F := Ideal) (φ₁ := .f32) dot_S50000x32_S32x128_S50000x128_1_0_0_1_n_n none (scaleRows x s) W)
         (broadcastInDim S50000x128 ![0, 1] bcast_S1x128_S50000x128_0_1 (broadcastInDim S1x128 ![1] bcast_S128_S1x128_1 b))
      = affine x s W (rowOf b) := by
  funext i
  rw [addf_apply, affine_apply, dot32x128_apply, bcastVecRow (by decide) bcast_S128_S1x128_1 b,
    bcastRow_apply (by decide) bcast_S1x128_S50000x128_0_1 (rowOf b) i]
  rfl

/-! ### The clamp at zero -/

theorem max_zero64 (y : FVec Ideal S50000x64 .f32) :
    maximumf y (broadcastInDim S50000x64 ![] bcast_S_S50000x64 (constant (F := Ideal) S_ .f32 0x00000000#32)) = relu y := by
  funext i
  rw [maximumf_apply, relu_apply,
    broadcastInDim_apply _ bcast_S_S50000x64 (constant (F := Ideal) S_ .f32 0x00000000#32) i ix0 (fun a => a.elim0),
    constant_apply, Ideal.ofBits_zero_f32]

/-! ### A vector reshaped to a single row -/

/-- A length-`n` vector reshaped to `[1, n]` is the vector laid out as one row. -/
theorem shapeCast_row {n : Nat} (b : FVec Ideal (⟨1, ![n]⟩ : Shape) .f32)
    (h : (⟨1, ![n]⟩ : Shape).ShapeCasts (⟨2, ![1, n]⟩ : Shape)) :
    shapeCast (⟨2, ![1, n]⟩ : Shape) b h = rowOf b := by
  funext i
  obtain ⟨u, q, rfl⟩ : ∃ (u : Fin 1) (q : Fin n), i = ix2 u q := ⟨i 0, i 1, eq_ix2 i⟩
  exact shapeCast_a_1a_apply b h u q

theorem shapeCast_row64 (b : FVec Ideal S64 .f32) (h : S64.ShapeCasts S1x64) :
    shapeCast S1x64 b h = rowOf b := shapeCast_row b h

theorem bcast_row64 (b : FVec Ideal S64 .f32) :
    broadcastInDim S1x64 ![1] bcast_S64_S1x64_1 b = rowOf b := bcastVecRow (by decide) bcast_S64_S1x64_1 b

theorem shapeCast_row32 (b : FVec Ideal S32 .f32) (h : S32.ShapeCasts S1x32) :
    shapeCast S1x32 b h = rowOf b := shapeCast_row b h

theorem bcast_row32 (b : FVec Ideal S32 .f32) :
    broadcastInDim S1x32 ![1] bcast_S32_S1x32_1 b = rowOf b := bcastVecRow (by decide) bcast_S32_S1x32_1 b

theorem shapeCast_row128 (b : FVec Ideal S128 .f32) (h : S128.ShapeCasts S1x128) :
    shapeCast S1x128 b h = rowOf b := shapeCast_row b h

theorem bcast_row128 (b : FVec Ideal S128 .f32) :
    broadcastInDim S1x128 ![1] bcast_S128_S1x128_1 b = rowOf b := bcastVecRow (by decide) bcast_S128_S1x128_1 b

/-! ### A dense stage as one function -/

/-- One dense stage of the reference as a single function: scale the rows, contract with the weights, add the bias. -/
theorem layer128x64 (x : FVec Ideal S50000x128 .f32) (s : FVec Ideal S50000x1 .f32) (W : FVec Ideal S128x64 .f32) (b : FVec Ideal S64 .f32) :
    addf (Host.dotGeneral (F := Ideal) dot_S50000x128_S128x64_S50000x64_1_0_0_1_n_n none
            (mulf x (broadcastInDim S50000x128 ![0, 1] bcast_S50000x1_S50000x128_0_1 s)) W)
         (broadcastInDim S50000x64 ![0, 1] bcast_S1x64_S50000x64_0_1 (broadcastInDim S1x64 ![1] bcast_S64_S1x64_1 b))
      = affine x s W (rowOf b) := by
  rw [mulf_bcastCol128]
  exact dot_bias128x64 x s W b

/-- One dense stage of the reference as a single function: scale the rows, contract with the weights, add the bias. -/
theorem layer64x32 (x : FVec Ideal S50000x64 .f32) (s : FVec Ideal S50000x1 .f32) (W : FVec Ideal S64x32 .f32) (b : FVec Ideal S32 .f32) :
    addf (Host.dotGeneral (F := Ideal) dot_S50000x64_S64x32_S50000x32_1_0_0_1_n_n none
            (mulf x (broadcastInDim S50000x64 ![0, 1] bcast_S50000x1_S50000x64_0_1 s)) W)
         (broadcastInDim S50000x32 ![0, 1] bcast_S1x32_S50000x32_0_1 (broadcastInDim S1x32 ![1] bcast_S32_S1x32_1 b))
      = affine x s W (rowOf b) := by
  rw [mulf_bcastCol64]
  exact dot_bias64x32 x s W b

/-- One dense stage of the reference as a single function: scale the rows, contract with the weights, add the bias. -/
theorem layer32x128 (x : FVec Ideal S50000x32 .f32) (s : FVec Ideal S50000x1 .f32) (W : FVec Ideal S32x128 .f32) (b : FVec Ideal S128 .f32) :
    addf (Host.dotGeneral (F := Ideal) dot_S50000x32_S32x128_S50000x128_1_0_0_1_n_n none
            (mulf x (broadcastInDim S50000x32 ![0, 1] bcast_S50000x1_S50000x32_0_1 s)) W)
         (broadcastInDim S50000x128 ![0, 1] bcast_S1x128_S50000x128_0_1 (broadcastInDim S1x128 ![1] bcast_S128_S1x128_1 b))
      = affine x s W (rowOf b) := by
  rw [mulf_bcastCol32]
  exact dot_bias32x128 x s W b

end Cert.ReferenceIdeal.Stages

end
-- ==== Proof.DegOut.lean ====
/-
  The column of reciprocal square roots of the clamped out-degrees, as the idealized kernel program's host
  operations leave it before the first region: ones scattered along the source endpoints into a zero vector, the
  maximum with one, the reciprocal square root, and the vector laid out as a column. The clamp is a call of a
  module-local function, whose typed buffer references carry a transport along a type equation that is the identity.
-/
import proofs.«118983_j69097433858683_1_alg».proof.Proof.Gen.KernelIdeal.Frame
import proofs.«118983_j69097433858683_1_alg».proof.Proof.HostStages
import Idealize.ShloMosaic.Lib.StableHlo.Run

noncomputable section

namespace Cert.KernelIdeal.Degrees

open Cert.KernelIdeal Cert.KernelIdeal.Gen Cert.GraphConv
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- At the first region's entry the out-degree column is `invSqrtDeg` of the launch contents of the source
    endpoint list. -/
theorem invSqrt_out :
    W5 m ρ c (Proc.devRef .tc main_v10) = invSqrtDeg (m ((c : Thread nD τ).loc main_arg1)) := by
  dsimp only [W1, W2, W3, W4, W5, hostOps0, hostOps0_1, hostOps0_2, hostOps0_3, hostOps0_4]
  after_results_simp
  simp only [cast_eq]
  rfl

end Cert.KernelIdeal.Degrees

end
-- ==== Proof.DegIn.lean ====
/-
  The column of reciprocal square roots of the clamped in-degrees, as the idealized kernel program's host
  operations leave it before the first region: ones scattered along the destination endpoints into a zero vector, the
  maximum with one, the reciprocal square root, and the vector laid out as a column. The clamp is a call of a
  module-local function, whose typed buffer references carry a transport along a type equation that is the identity.
-/
import proofs.«118983_j69097433858683_1_alg».proof.Proof.Gen.KernelIdeal.Frame
import proofs.«118983_j69097433858683_1_alg».proof.Proof.HostStages
import Idealize.ShloMosaic.Lib.StableHlo.Run

noncomputable section

namespace Cert.KernelIdeal.Degrees

open Cert.KernelIdeal Cert.KernelIdeal.Gen Cert.GraphConv
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- At the first region's entry the in-degree column is `invSqrtDeg` of the launch contents of the destination
    endpoint list. -/
theorem invSqrt_in :
    W5 m ρ c (Proc.devRef .tc main_v12) = invSqrtDeg (m ((c : Thread nD τ).loc main_arg2)) := by
  dsimp only [W1, W2, W3, W4, W5, hostOps0, hostOps0_1, hostOps0_2, hostOps0_3, hostOps0_4]
  after_results_simp
  simp only [cast_eq]
  rfl

end Cert.KernelIdeal.Degrees

end
-- ==== Proof.Rows0.lean ====
/-
  Row-scaling region 0 of the idealized kernel program: x ↦ x · s[:, None] on a [50000, 128] matrix, computed in five
  row blocks of 10000 rows. Each grid point loads its block of the matrix and of the column, multiplies entry by
  entry (the column broadcast along the feature axis) and writes the block back; the five blocks tile the array, so
  the array after the region is the whole matrix with every row scaled.
-/
import proofs.«118983_j69097433858683_1_alg».proof.Proof.Gen.KernelIdeal.Frame
import proofs.«118983_j69097433858683_1_alg».proof.Proof.Spec
import Idealize.ShloMosaic.Lib.Pipeline.Value
import Idealize.ShloMosaic.Lib.ValueIdx
import Idealize.ShloMosaic.Lib.ValueLayout

noncomputable section

namespace Cert.KernelIdeal.Rows

open Cert.KernelIdeal Cert.KernelIdeal.Gen Cert.GraphConv Idealize.ShloMosaic Idealize.ShloMosaic.TcCoe Idealize.SL.Sem
open Idealize.ShloMosaic.ValueIdx

variable (V : (c : Dev nD) → (b : Ref sig .tc) → Buf (Elt Ideal) ((c : Thread nD τ).loc b))

/-- The zero offsets of a whole-block access, spelt as the constant function. -/
theorem hz0 : (![0, 0] : Fin 2 → Nat) = fun _ => 0 := funext fun a => by fin_cases a <;> rfl

/-- The body's arithmetic at an entry of the block: the entry of the feature block times its row's entry of the
    column block (the column is broadcast along the feature axis). -/
theorem pay0 (x0 : Vec Ideal S10000x128 .f32) (x1 : Vec Ideal S10000x1 .f32) (p : Fin 10000) (q : Fin 128) :
    k0_pay1 x0 x1 (ix2 p q) = x0 (ix2 p q) * x1 (ix2 p 0) := by
  unfold k0_pay1
  show x0 (ix2 p q) * broadcastTo S10000x128 (shapeCast S10000x1 x1 shapeCasts_S10000x1_S10000x1) broadcasts_S10000x1_S10000x128 (ix2 p q) = _
  rw [shapeCast_self]
  refine congrArg (x0 (ix2 p q) * ·) ?_
  exact broadcastTo_apply x1 _ (ix2 p q) (ix2 p 0) (fun a => by match a with | ⟨0, _⟩ => rfl | ⟨1, _⟩ => rfl)

/-- The three windows move together: block `t` of each is rows `10000·t … 10000·t + 9999`, all columns. -/
theorem idx_facts0 : ∀ t : Fin cfg0.N, win0_0.index t (0 : Fin 2) = win0_2.index t (0 : Fin 2)
    ∧ win0_0.index t (1 : Fin 2) = 0 ∧ win0_1.index t (0 : Fin 2) = win0_2.index t (0 : Fin 2)
    ∧ win0_1.index t (1 : Fin 2) = 0 ∧ win0_2.index t (1 : Fin 2) = 0 ∧ win0_2.index t (0 : Fin 2) ≤ 4 :=
  (by decide +kernel : ∀ t : Fin grid0.N, _)

/-- What grid point `t` writes back is block `t` of the row-scaled matrix. -/
theorem flushed0 (c : Dev nD) (t : Fin cfg0.N) :
    (dat0 (F := Ideal) V c).flushed 2 t
      = ((cfg0.win 2).blk t).view.read (Elt Ideal) (scaleRows (V c main_arg0) (V c main_v10)) := by
  show (cfg0.win 2).cut (grid0.coords t) ((dat0 V c).after 2 t) = _
  rw [after0_2]
  unfold out0_2
  rw [View.canon_unit_zero hz0]
  simp only [View.ld_unit_zero (S := S10000x128) hz0, View.ld_unit_zero (S := S10000x1) hz0]
  obtain ⟨e0, e1, e2, e3, e4, e5⟩ := idx_facts0 t
  funext j
  show k0_pay1 (iblk0 V c 0 t) (iblk0 V c 1 t) j
    = scaleRows (V c main_arg0) (V c main_v10) (((cfg0.win 2).blk t).view.emb j)
  refine (congrArg (k0_pay1 (iblk0 V c 0 t) (iblk0 V c 1 t)) (eq_ix2 j)).trans ?_
  refine (pay0 _ _ (j 0) (j 1)).trans ?_
  have h0 : iblk0 V c 0 t (ix2 (j 0) (j 1)) = V c main_arg0 (((cfg0.win 2).blk t).view.emb j) := by
    show V c main_arg0 (((cfg0.win 0).blk t).view.emb (ix2 (j 0) (j 1))) = _
    refine congrArg (V c main_arg0) (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * (j 1).val = win0_2.index t (1 : Fin 2) * 128 + 1 * (j 1).val; omega
  have h1 : iblk0 V c 1 t (ix2 (j 0) 0) = V c main_v10 (ix2 ((((cfg0.win 2).blk t).view.emb j) 0) 0) := by
    show V c main_v10 (((cfg0.win 1).blk t).view.emb (ix2 (j 0) 0)) = _
    refine congrArg (V c main_v10) (funext fun a => Fin.ext ?_)
    match a with
    | ⟨0, _⟩ => show win0_1.index t (0 : Fin 2) * 10000 + 1 * (j 0).val = win0_2.index t (0 : Fin 2) * 10000 + 1 * (j 0).val; omega
    | ⟨1, _⟩ => show win0_1.index t (1 : Fin 2) * 1 + 1 * 0 = 0; omega
  rw [h0, h1]
  rfl

/-- An index of the output array lies in point `t`'s block iff each coordinate lies in the block's range. -/
theorem mem_blk0 (t : Fin cfg0.N) (i : S50000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v13).slice (win0_2.rect t)).set ↔ _
  rw [View.set_slice_whole, Rect.mem_set_unit]
  exact Iff.rfl

/-- Every one of the five row blocks is some point's. -/
theorem idx_onto0 : ∀ (q0 : Fin 5), ∃ t : Fin cfg0.N, win0_2.index t = ![q0.val, 0] :=
  (by decide +kernel : ∀ (q0 : Fin 5), ∃ t : Fin grid0.N, win0_2.index t = ![q0.val, 0])

/-- The blocks tile the array: row `r` is in the block of point `r / 10000`. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto0 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- After the region its output array is the entry feature matrix with every row scaled by that row's entry of
    the entry column. -/
theorem region0_array (c : Dev nD) :
    (dat0 (F := Ideal) V c).arrAt 2 cfg0.N = scaleRows (V c main_arg0) (V c main_v10) :=
  (dat0 V c).arrAt_eq_of_cover 2 _ (fun t _ => flushed0 V c t) (cover0)

end Cert.KernelIdeal.Rows

end
-- ==== Proof.Rows2.lean ====
/-
  Row-scaling region 2 of the idealized kernel program: x ↦ x · s[:, None] on a [50000, 64] matrix, computed in five
  row blocks of 10000 rows. Each grid point loads its block of the matrix and of the column, multiplies entry by
  entry (the column broadcast along the feature axis) and writes the block back; the five blocks tile the array, so
  the array after the region is the whole matrix with every row scaled.
-/
import proofs.«118983_j69097433858683_1_alg».proof.Proof.Gen.KernelIdeal.Frame
import proofs.«118983_j69097433858683_1_alg».proof.Proof.Spec
import Idealize.ShloMosaic.Lib.Pipeline.Value
import Idealize.ShloMosaic.Lib.ValueIdx
import Idealize.ShloMosaic.Lib.ValueLayout

noncomputable section

namespace Cert.KernelIdeal.Rows

open Cert.KernelIdeal Cert.KernelIdeal.Gen Cert.GraphConv Idealize.ShloMosaic Idealize.ShloMosaic.TcCoe Idealize.SL.Sem
open Idealize.ShloMosaic.ValueIdx

variable (V : (c : Dev nD) → (b : Ref sig .tc) → Buf (Elt Ideal) ((c : Thread nD τ).loc b))

/-- The zero offsets of a whole-block access, spelt as the constant function. -/
theorem hz2 : (![0, 0] : Fin 2 → Nat) = fun _ => 0 := funext fun a => by fin_cases a <;> rfl

/-- The body's arithmetic at an entry of the block: the entry of the feature block times its row's entry of the
    column block (the column is broadcast along the feature axis). -/
theorem pay2 (x0 : Vec Ideal S10000x64 .f32) (x1 : Vec Ideal S10000x1 .f32) (p : Fin 10000) (q : Fin 64) :
    k2_pay1 x0 x1 (ix2 p q) = x0 (ix2 p q) * x1 (ix2 p 0) := by
  unfold k2_pay1
  show shapeCast S10000x64 x0 shapeCasts_S10000x64_S10000x64 (ix2 p q) * broadcastTo S10000x64 (shapeCast S10000x1 x1 shapeCasts_S10000x1_S10000x1) broadcasts_S10000x1_S10000x64 (ix2 p q) = _
  rw [shapeCast_self, shapeCast_self]
  refine congrArg (x0 (ix2 p q) * ·) ?_
  exact broadcastTo_apply x1 _ (ix2 p q) (ix2 p 0) (fun a => by match a with | ⟨0, _⟩ => rfl | ⟨1, _⟩ => rfl)

/-- The three windows move together: block `t` of each is rows `10000·t … 10000·t + 9999`, all columns. -/
theorem idx_facts2 : ∀ t : Fin cfg2.N, win2_0.index t (0 : Fin 2) = win2_2.index t (0 : Fin 2)
    ∧ win2_0.index t (1 : Fin 2) = 0 ∧ win2_1.index t (0 : Fin 2) = win2_2.index t (0 : Fin 2)
    ∧ win2_1.index t (1 : Fin 2) = 0 ∧ win2_2.index t (1 : Fin 2) = 0 ∧ win2_2.index t (0 : Fin 2) ≤ 4 :=
  (by decide +kernel : ∀ t : Fin grid2.N, _)

/-- What grid point `t` writes back is block `t` of the row-scaled matrix. -/
theorem flushed2 (c : Dev nD) (t : Fin cfg2.N) :
    (dat2 (F := Ideal) V c).flushed 2 t
      = ((cfg2.win 2).blk t).view.read (Elt Ideal) (scaleRows (V c main_v25) (V c main_v10)) := by
  show (cfg2.win 2).cut (grid2.coords t) ((dat2 V c).after 2 t) = _
  rw [after2_2]
  unfold out2_2
  rw [View.canon_unit_zero hz2]
  simp only [View.ld_unit_zero (S := S10000x64) hz2, View.ld_unit_zero (S := S10000x1) hz2]
  obtain ⟨e0, e1, e2, e3, e4, e5⟩ := idx_facts2 t
  funext j
  show k2_pay1 (iblk2 V c 0 t) (iblk2 V c 1 t) j
    = scaleRows (V c main_v25) (V c main_v10) (((cfg2.win 2).blk t).view.emb j)
  refine (congrArg (k2_pay1 (iblk2 V c 0 t) (iblk2 V c 1 t)) (eq_ix2 j)).trans ?_
  refine (pay2 _ _ (j 0) (j 1)).trans ?_
  have h0 : iblk2 V c 0 t (ix2 (j 0) (j 1)) = V c main_v25 (((cfg2.win 2).blk t).view.emb j) := by
    show V c main_v25 (((cfg2.win 0).blk t).view.emb (ix2 (j 0) (j 1))) = _
    refine congrArg (V c main_v25) (funext fun a => Fin.ext ?_)
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 64 + 1 * (j 1).val = win2_2.index t (1 : Fin 2) * 64 + 1 * (j 1).val; omega
  have h1 : iblk2 V c 1 t (ix2 (j 0) 0) = V c main_v10 (ix2 ((((cfg2.win 2).blk t).view.emb j) 0) 0) := by
    show V c main_v10 (((cfg2.win 1).blk t).view.emb (ix2 (j 0) 0)) = _
    refine congrArg (V c main_v10) (funext fun a => Fin.ext ?_)
    match a with
    | ⟨0, _⟩ => show win2_1.index t (0 : Fin 2) * 10000 + 1 * (j 0).val = win2_2.index t (0 : Fin 2) * 10000 + 1 * (j 0).val; omega
    | ⟨1, _⟩ => show win2_1.index t (1 : Fin 2) * 1 + 1 * 0 = 0; omega
  rw [h0, h1]
  rfl

/-- An index of the output array lies in point `t`'s block iff each coordinate lies in the block's range. -/
theorem mem_blk2 (t : Fin cfg2.N) (i : S50000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v26).slice (win2_2.rect t)).set ↔ _
  rw [View.set_slice_whole, Rect.mem_set_unit]
  exact Iff.rfl

/-- Every one of the five row blocks is some point's. -/
theorem idx_onto2 : ∀ (q0 : Fin 5), ∃ t : Fin cfg2.N, win2_2.index t = ![q0.val, 0] :=
  (by decide +kernel : ∀ (q0 : Fin 5), ∃ t : Fin grid2.N, win2_2.index t = ![q0.val, 0])

/-- The blocks tile the array: row `r` is in the block of point `r / 10000`. -/
theorem cover2 (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ := idx_onto2 ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- After the region its output array is the entry feature matrix with every row scaled by that row's entry of
    the entry column. -/
theorem region2_array (c : Dev nD) :
    (dat2 (F := Ideal) V c).arrAt 2 cfg2.N = scaleRows (V c main_v25) (V c main_v10) :=
  (dat2 V c).arrAt_eq_of_cover 2 _ (fun t _ => flushed2 V c t) (cover2)

end Cert.KernelIdeal.Rows

end
-- ==== Proof.Rows4.lean ====
/-
  Row-scaling region 4 of the idealized kernel program: x ↦ x · s[:, None] on a [50000, 32] matrix, computed in five
  row blocks of 10000 rows. Each grid point loads its block of the matrix and of the column, multiplies entry by
  entry (the column broadcast along the feature axis) and writes the block back; the five blocks tile the array, so
  the array after the region is the whole matrix with every row scaled.
-/
import proofs.«118983_j69097433858683_1_alg».proof.Proof.Gen.KernelIdeal.Frame
import proofs.«118983_j69097433858683_1_alg».proof.Proof.Spec
import Idealize.ShloMosaic.Lib.Pipeline.Value
import Idealize.ShloMosaic.Lib.ValueIdx
import Idealize.ShloMosaic.Lib.ValueLayout

noncomputable section

namespace Cert.KernelIdeal.Rows

open Cert.KernelIdeal Cert.KernelIdeal.Gen Cert.GraphConv Idealize.ShloMosaic Idealize.ShloMosaic.TcCoe Idealize.SL.Sem
open Idealize.ShloMosaic.ValueIdx

variable (V : (c : Dev nD) → (b : Ref sig .tc) → Buf (Elt Ideal) ((c : Thread nD τ).loc b))

/-- The zero offsets of a whole-block access, spelt as the constant function. -/
theorem hz4 : (![0, 0] : Fin 2 → Nat) = fun _ => 0 := funext fun a => by fin_cases a <;> rfl

/-- The body's arithmetic at an entry of the block: the entry of the feature block times its row's entry of the
    column block (the column is broadcast along the feature axis). -/
theorem pay4 (x0 : Vec Ideal S10000x32 .f32) (x1 : Vec Ideal S10000x1 .f32) (p : Fin 10000) (q : Fin 32) :
    k4_pay1 x0 x1 (ix2 p q) = x0 (ix2 p q) * x1 (ix2 p 0) := by
  unfold k4_pay1
  show shapeCast S10000x32 x0 shapeCasts_S10000x32_S10000x32 (ix2 p q) * broadcastTo S10000x32 (shapeCast S10000x1 x1 shapeCasts_S10000x1_S10000x1) broadcasts_S10000x1_S10000x32 (ix2 p q) = _
  rw [shapeCast_self, shapeCast_self]
  refine congrArg (x0 (ix2 p q) * ·) ?_
  exact broadcastTo_apply x1 _ (ix2 p q) (ix2 p 0) (fun a => by match a with | ⟨0, _⟩ => rfl | ⟨1, _⟩ => rfl)

/-- The three windows move together: block `t` of each is rows `10000·t … 10000·t + 9999`, all columns. -/
theorem idx_facts4 : ∀ t : Fin cfg4.N, win4_0.index t (0 : Fin 2) = win4_2.index t (0 : Fin 2)
    ∧ win4_0.index t (1 : Fin 2) = 0 ∧ win4_1.index t (0 : Fin 2) = win4_2.index t (0 : Fin 2)
    ∧ win4_1.index t (1 : Fin 2) = 0 ∧ win4_2.index t (1 : Fin 2) = 0 ∧ win4_2.index t (0 : Fin 2) ≤ 4 :=
  (by decide +kernel : ∀ t : Fin grid4.N, _)

/-- What grid point `t` writes back is block `t` of the row-scaled matrix. -/
theorem flushed4 (c : Dev nD) (t : Fin cfg4.N) :
    (dat4 (F := Ideal) V c).flushed 2 t
      = ((cfg4.win 2).blk t).view.read (Elt Ideal) (scaleRows (V c main_v38) (V c main_v10)) := by
  show (cfg4.win 2).cut (grid4.coords t) ((dat4 V c).after 2 t) = _
  rw [after4_2]
  unfold out4_2
  rw [View.canon_unit_zero hz4]
  simp only [View.ld_unit_zero (S := S10000x32) hz4, View.ld_unit_zero (S := S10000x1) hz4]
  obtain ⟨e0, e1, e2, e3, e4, e5⟩ := idx_facts4 t
  funext j
  show k4_pay1 (iblk4 V c 0 t) (iblk4 V c 1 t) j
    = scaleRows (V c main_v38) (V c main_v10) (((cfg4.win 2).blk t).view.emb j)
  refine (congrArg (k4_pay1 (iblk4 V c 0 t) (iblk4 V c 1 t)) (eq_ix2 j)).trans ?_
  refine (pay4 _ _ (j 0) (j 1)).trans ?_
  have h0 : iblk4 V c 0 t (ix2 (j 0) (j 1)) = V c main_v38 (((cfg4.win 2).blk t).view.emb j) := by
    show V c main_v38 (((cfg4.win 0).blk t).view.emb (ix2 (j 0) (j 1))) = _
    refine congrArg (V c main_v38) (funext fun a => Fin.ext ?_)
    match a with
    | ⟨0, _⟩ => show win4_0.index t (0 : Fin 2) * 10000 + 1 * (j 0).val = win4_2.index t (0 : Fin 2) * 10000 + 1 * (j 0).val; omega
    | ⟨1, _⟩ => show win4_0.index t (1 : Fin 2) * 32 + 1 * (j 1).val = win4_2.index t (1 : Fin 2) * 32 + 1 * (j 1).val; omega
  have h1 : iblk4 V c 1 t (ix2 (j 0) 0) = V c main_v10 (ix2 ((((cfg4.win 2).blk t).view.emb j) 0) 0) := by
    show V c main_v10 (((cfg4.win 1).blk t).view.emb (ix2 (j 0) 0)) = _
    refine congrArg (V c main_v10) (funext fun a => Fin.ext ?_)
    match a with
    | ⟨0, _⟩ => show win4_1.index t (0 : Fin 2) * 10000 + 1 * (j 0).val = win4_2.index t (0 : Fin 2) * 10000 + 1 * (j 0).val; omega
    | ⟨1, _⟩ => show win4_1.index t (1 : Fin 2) * 1 + 1 * 0 = 0; omega
  rw [h0, h1]
  rfl

/-- An index of the output array lies in point `t`'s block iff each coordinate lies in the block's range. -/
theorem mem_blk4 (t : Fin cfg4.N) (i : S50000x32.Idx) :
    i ∈ ((cfg4.win 2).blk t).view.set ↔ ∀ a : Fin 2, win4_2.index t a * S10000x32.size a ≤ (i a).val ∧ (i a).val < win4_2.index t a * S10000x32.size a + S10000x32.size a := by
  show i ∈ ((View.whole main_v39).slice (win4_2.rect t)).set ↔ _
  rw [View.set_slice_whole, Rect.mem_set_unit]
  exact Iff.rfl

/-- Every one of the five row blocks is some point's. -/
theorem idx_onto4 : ∀ (q0 : Fin 5), ∃ t : Fin cfg4.N, win4_2.index t = ![q0.val, 0] :=
  (by decide +kernel : ∀ (q0 : Fin 5), ∃ t : Fin grid4.N, win4_2.index t = ![q0.val, 0])

/-- The blocks tile the array: row `r` is in the block of point `r / 10000`. -/
theorem cover4 (i : S50000x32.Idx) :
    ∃ t : Fin cfg4.N, (cfg4.win 2).flush t = true ∧ i ∈ ((cfg4.win 2).blk t).view.set := by
  have hi0 : (i 0).val < 50000 := (i 0).isLt
  have hi1 : (i 1).val < 32 := (i 1).isLt
  obtain ⟨t, ht⟩ := idx_onto4 ⟨(i 0).val / 10000, by omega⟩
  have q0 : win4_2.index t (0 : Fin 2) = (i 0).val / 10000 := congrFun ht 0
  have q1 : win4_2.index t (1 : Fin 2) = 0 := congrFun ht 1
  refine ⟨t, flush4_2 t, ?_⟩
  rw [mem_blk4]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 32 ≤ (i 1).val ∧ (i 1).val < win4_2.index t (1 : Fin 2) * 32 + 32; omega

/-- After the region its output array is the entry feature matrix with every row scaled by that row's entry of
    the entry column. -/
theorem region4_array (c : Dev nD) :
    (dat4 (F := Ideal) V c).arrAt 2 cfg4.N = scaleRows (V c main_v38) (V c main_v10) :=
  (dat4 V c).arrAt_eq_of_cover 2 _ (fun t _ => flushed4 V c t) (cover4)

end Cert.KernelIdeal.Rows

end
-- ==== Proof.Dense1.lean ====
import proofs.«118983_j69097433858683_1_alg».proof.Proof.Gen.KernelIdeal.Frame
import proofs.«118983_j69097433858683_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Dense

open Cert.KernelIdeal Cert.KernelIdeal.Gen Cert.GraphConv Idealize.ShloMosaic Idealize.ShloMosaic.TcCoe Idealize.SL.Sem Idealize.ShloMosaic.ValueIdx

variable (V : (c : Dev nD) → (b : Ref sig .tc) → Buf (Elt Ideal) ((c : Thread nD τ).loc b))

/-! ## The matrix product at an output index -/

/-- The left operand's row coordinate at output index `i` is `i`'s row. -/
theorem lhs1_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
/-- The left operand's column coordinate is the contracted coordinate. -/
theorem lhs1_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
/-- The right operand's row coordinate is the contracted coordinate. -/
theorem rhs1_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
/-- The right operand's column coordinate at output index `i` is `i`'s column. -/
theorem rhs1_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The product into a zero accumulator, read at row `p` and column `q`: the sum over the 128 contracted positions
    of the left operand's row entries times the right operand's column entries. -/
theorem matmul1_apply (a : FVec Ideal S10000x128 .bf16) (b : FVec Ideal S128x64 .bf16) (p : Fin 10000) (q : Fin 64) :
    FloatOps.matmul dot_S10000x128_S128x64_S10000x64_1_0_0_1_n_n none a b (constant (F := Ideal) S10000x64 .f32 0x00000000#32) (ix2 p q)
      = ∑ r : Fin 128, a (ix2 p r) * b (ix2 r q) := by
  rw [Ideal.matmul_constant_zero_apply, ← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p q) ((contrEquiv1 dot_S10000x128_S128x64_S10000x64_1_0_0_1_n_n 128 rfl rfl).symm k) = ix2 p k := funext fun a => Fin.ext (by
    match a with
    | ⟨0, _⟩ => exact lhs1_0 _ _
    | ⟨1, _⟩ => exact (lhs1_1 _ _).trans hk)
  have er : dot_S10000x128_S128x64_S10000x64_1_0_0_1_n_n.rhsIdx (ix2 p q) ((contrEquiv1 dot_S10000x128_S128x64_S10000x64_1_0_0_1_n_n 128 rfl rfl).symm k) = ix2 k q := funext fun a => Fin.ext (by
    match a with
    | ⟨0, _⟩ => exact (rhs1_0 _ _).trans hk
    | ⟨1, _⟩ => exact rhs1_1 _ _)
  rw [el, er]

/-! ## The body's arithmetic at an index -/

/-- What the body stores at row `p`, column `q` of its block, from the four blocks it loads: the row of `x0` scaled by
    the row's entry of the column `x1`, times column `q` of `x2`, plus the bias row's entry, clamped below at zero. -/
theorem pay1_apply (x0 : Vec Ideal S10000x128 .f32) (x1 : Vec Ideal S10000x1 .f32) (x2 : Vec Ideal S128x64 .f32) (x3 : Vec Ideal S1x64 .f32)
    (p : Fin 10000) (q : Fin 64) :
    k1_pay1 (F := Ideal) x0 x1 x2 x3 (ix2 p q)
      = max ((∑ r : Fin 128, (x0 (ix2 p r) * x1 (ix2 p 0)) * x2 (ix2 r q)) + x3 (ix2 0 q)) 0 := by
  unfold k1_pay1
  simp only [shapeCast_self]
  rw [maximumf_apply, addf_apply, broadcast_apply]
  refine congrArg₂ max (congrArg₂ (· + ·) ((matmul1_apply _ _ p q).trans (Finset.sum_congr rfl fun r _ => ?_)) ?_) ?_
  · show (x0 (ix2 p r) * broadcastTo S10000x128 x1 broadcasts_S10000x1_S10000x128 (ix2 p r)) * x2 (ix2 r q) = _
    rw [broadcastTo_apply x1 broadcasts_S10000x1_S10000x128 (ix2 p r) (ix2 p 0) (fun a => match a with
      | ⟨0, _⟩ => by show p.val = if (10000 : Nat) = 1 then 0 else p.val; rw [if_neg (by decide)]
      | ⟨1, _⟩ => by show 0 = if (1 : Nat) = 1 then 0 else r.val; rw [if_pos rfl])]
  · exact broadcastTo_apply x3 broadcasts_S1x64_S10000x64 (ix2 p q) (ix2 0 q) (fun a => match a with
      | ⟨0, _⟩ => by show 0 = if (1 : Nat) = 1 then 0 else p.val; rw [if_pos rfl]
      | ⟨1, _⟩ => by show q.val = if (64 : Nat) = 1 then 0 else q.val; rw [if_neg (by decide)])
  · exact Ideal.ofBits_zero_f32

/-- The body's arithmetic on four blocks that are read off four arrays — row `p` of the first two at the arrays' row `R`,
    column `q` of the last two at the arrays' column `C` — is the dense stage's function of the arrays at `(R, C)`. -/
theorem pay1_of_blocks (x0 : Vec Ideal S10000x128 .f32) (x1 : Vec Ideal S10000x1 .f32) (x2 : Vec Ideal S128x64 .f32) (x3 : Vec Ideal S1x64 .f32)
    (A0 : Mat 50000 128) (Ab : Mat 50000 1) (A2 : Mat 128 64) (A3 : Mat 1 64) (p : Fin 10000) (q : Fin 64) (R : Fin 50000) (C : Fin 64)
    (h0 : ∀ r : Fin 128, x0 (ix2 p r) = A0 (ix2 R r)) (h1 : x1 (ix2 p 0) = Ab (ix2 R 0))
    (h2 : ∀ r : Fin 128, x2 (ix2 r q) = A2 (ix2 r C)) (h3 : x3 (ix2 0 q) = A3 (ix2 0 C)) :
    k1_pay1 (F := Ideal) x0 x1 x2 x3 (ix2 p q) = (relu (affine A0 Ab A2 A3)) (ix2 R C) := by
  refine (pay1_apply x0 x1 x2 x3 p q).trans ?_
  rw [relu_apply, affine_apply]
  refine congrArg (max · 0) (congrArg₂ (· + ·) (Finset.sum_congr rfl fun r _ => ?_) h3)
  show (x0 (ix2 p r) * x1 (ix2 p 0)) * x2 (ix2 r q) = (A0 (ix2 R r) * Ab (ix2 R 0)) * A2 (ix2 r C)
  rw [h0 r, h1, h2 r]

/-! ## From the blocks to the array -/

/-- The zero offsets of the body's whole-buffer accesses. -/
theorem hz1 : (![0, 0] : Fin 2 → Nat) = fun _ => 0 := funext fun a => by fin_cases a <;> rfl

/-- The printed index maps, decided over the grid: the two row-blocked inputs move with the output's row block, every
    column block index is 0, the weights and the bias row stay at block (0, 0), and the output's row block index is at most 4. -/
theorem idx_facts1 : ∀ t : Fin cfg1.N, win1_0.index t (0 : Fin 2) = win1_4.index t (0 : Fin 2)
    ∧ win1_0.index t (1 : Fin 2) = 0
    ∧ win1_1.index t (0 : Fin 2) = win1_4.index t (0 : Fin 2)
    ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (1 : Fin 2) = 0
    ∧ win1_4.index t (0 : Fin 2) ≤ 4 :=
  (by decide +kernel : ∀ t : Fin grid1.N, _)

/-- Every one of the five row blocks is some point's. -/
theorem idx_onto1 : ∀ (q0 : Fin 5), ∃ t : Fin cfg1.N, win1_4.index t = ![q0.val, 0] :=
  (by decide +kernel : ∀ (q0 : Fin 5), ∃ t : Fin grid1.N, win1_4.index t = ![q0.val, 0])

/-- The feature block at point `t`, row `p`: row `R` of the feature array, `R` the output block's row. -/
theorem blk1_0 (c : Dev nD) (t : Fin cfg1.N) (p : Fin 10000) (r : Fin 128) (R : Fin 50000)
    (hR : R.val = win1_4.index t (0 : Fin 2) * 10000 + 1 * p.val) :
    iblk1 (F := Ideal) V c 0 t (ix2 p r) = V c main_v23 (ix2 R r) := by
  obtain ⟨e0, e1, e2, e3, e4, e5, e6, e7, e8, e9⟩ := idx_facts1 t
  show V c main_v23 (((cfg1.win 0).blk t).view.emb (ix2 p r)) = V c main_v23 (ix2 R r)
  refine congrArg (V c main_v23) (funext fun a => Fin.ext ?_)
  match a with
  | ⟨0, _⟩ => show win1_0.index t (0 : Fin 2) * 10000 + 1 * p.val = R.val; omega
  | ⟨1, _⟩ => show win1_0.index t (1 : Fin 2) * 128 + 1 * r.val = r.val; omega

/-- The scaling column's block at point `t`, row `p`: entry `R` of the column. -/
theorem blk1_1 (c : Dev nD) (t : Fin cfg1.N) (p : Fin 10000) (R : Fin 50000)
    (hR : R.val = win1_4.index t (0 : Fin 2) * 10000 + 1 * p.val) :
    iblk1 (F := Ideal) V c 1 t (ix2 p 0) = V c main_v12 (ix2 R 0) := by
  obtain ⟨e0, e1, e2, e3, e4, e5, e6, e7, e8, e9⟩ := idx_facts1 t
  show V c main_v12 (((cfg1.win 1).blk t).view.emb (ix2 p 0)) = V c main_v12 (ix2 R 0)
  refine congrArg (V c main_v12) (funext fun a => Fin.ext ?_)
  match a with
  | ⟨0, _⟩ => show win1_1.index t (0 : Fin 2) * 10000 + 1 * p.val = R.val; omega
  | ⟨1, _⟩ => show win1_1.index t (1 : Fin 2) * 1 + 1 * 0 = 0; omega

/-- The weights' block is the whole weight matrix at every point. -/
theorem blk1_2 (c : Dev nD) (t : Fin cfg1.N) (r : Fin 128) (q : Fin 64) (C : Fin 64) (hC : C.val = win1_4.index t (1 : Fin 2) * 64 + 1 * q.val) :
    iblk1 (F := Ideal) V c 2 t (ix2 r q) = V c main_arg3 (ix2 r C) := by
  obtain ⟨e0, e1, e2, e3, e4, e5, e6, e7, e8, e9⟩ := idx_facts1 t
  show V c main_arg3 (((cfg1.win 2).blk t).view.emb (ix2 r q)) = V c main_arg3 (ix2 r C)
  refine congrArg (V c main_arg3) (funext fun a => Fin.ext ?_)
  match a with
  | ⟨0, _⟩ => show win1_2.index t (0 : Fin 2) * 128 + 1 * r.val = r.val; omega
  | ⟨1, _⟩ => show win1_2.index t (1 : Fin 2) * 64 + 1 * q.val = C.val; omega

/-- The bias row's block is the whole bias row at every point. -/
theorem blk1_3 (c : Dev nD) (t : Fin cfg1.N) (q : Fin 64) (C : Fin 64) (hC : C.val = win1_4.index t (1 : Fin 2) * 64 + 1 * q.val) :
    iblk1 (F := Ideal) V c 3 t (ix2 0 q) = V c main_v24 (ix2 0 C) := by
  obtain ⟨e0, e1, e2, e3, e4, e5, e6, e7, e8, e9⟩ := idx_facts1 t
  show V c main_v24 (((cfg1.win 3).blk t).view.emb (ix2 0 q)) = V c main_v24 (ix2 0 C)
  refine congrArg (V c main_v24) (funext fun a => Fin.ext ?_)
  match a with
  | ⟨0, _⟩ => show win1_3.index t (0 : Fin 2) * 1 + 1 * 0 = 0; omega
  | ⟨1, _⟩ => show win1_3.index t (1 : Fin 2) * 64 + 1 * q.val = C.val; omega

/-- WHAT POINT `t` WRITES BACK is block `t` of the dense stage's whole-array function of the arrays found at entry. -/
theorem flushed1_eq (c : Dev nD) (t : Fin cfg1.N) :
    (dat1 (F := Ideal) V c).flushed 4 t = ((cfg1.win 4).blk t).view.read (Elt Ideal) (relu (affine (V c main_v23) (V c main_v12) (V c main_arg3) (V c main_v24))) := by
  show (cfg1.win 4).cut (grid1.coords t) ((dat1 (F := Ideal) V c).after 4 t) = _
  rw [after1_4]
  unfold out1_4
  rw [View.canon_unit_zero hz1]
  simp only [View.ld_unit_zero (S := S10000x128) hz1, View.ld_unit_zero (S := S10000x1) hz1, View.ld_unit_zero (S := S128x64) hz1, View.ld_unit_zero (S := S1x64) hz1]
  funext j
  obtain ⟨p, q, rfl⟩ : ∃ (p : Fin 10000) (q : Fin 64), j = ix2 p q := ⟨j 0, j 1, eq_ix2 j⟩
  obtain ⟨R, C, hi⟩ : ∃ (R : Fin 50000) (C : Fin 64), ((cfg1.win 4).blk t).view.emb (ix2 p q) = ix2 R C := ⟨_, _, eq_ix2 _⟩
  have hR : R.val = win1_4.index t (0 : Fin 2) * 10000 + 1 * p.val := (congrArg (fun z : S50000x64.Idx => (z 0).val) hi).symm
  have hC : C.val = win1_4.index t (1 : Fin 2) * 64 + 1 * q.val := (congrArg (fun z : S50000x64.Idx => (z 1).val) hi).symm
  show _ = (relu (affine (V c main_v23) (V c main_v12) (V c main_arg3) (V c main_v24))) (((cfg1.win 4).blk t).view.emb (ix2 p q))
  rw [hi]
  exact pay1_of_blocks _ _ _ _ _ _ _ _ p q R C (fun r => blk1_0 V c t p r R hR) (blk1_1 V c t p R hR)
    (fun r => blk1_2 V c t r q C hC) (blk1_3 V c t q C hC)

/-- An index of the output array is in point `t`'s block iff each coordinate is in the block's range on its axis. -/
theorem mem_blk1 (t : Fin cfg1.N) (i : S50000x64.Idx) :
    i ∈ ((cfg1.win 4).blk t).view.set ↔ ∀ a : Fin 2, win1_4.index t a * S10000x64.size a ≤ (i a).val ∧ (i a).val < win1_4.index t a * S10000x64.size a + S10000x64.size a := by
  show i ∈ ((View.whole main_v25).slice (win1_4.rect t)).set ↔ _
  rw [View.set_slice_whole, Rect.mem_set_unit]
  exact Iff.rfl

/-- The five row blocks tile the output array: row `r` is in the block of the point whose row block index is `r / 10000`. -/
theorem cover1 (i : S50000x64.Idx) :
    ∃ t : Fin cfg1.N, (cfg1.win 4).flush t = true ∧ i ∈ ((cfg1.win 4).blk t).view.set := by
  have hi0 : (i 0).val < 50000 := (i 0).isLt
  have hi1 : (i 1).val < 64 := (i 1).isLt
  obtain ⟨t, ht⟩ := idx_onto1 ⟨(i 0).val / 10000, by omega⟩
  have q0 : win1_4.index t (0 : Fin 2) = (i 0).val / 10000 := congrFun ht 0
  have q1 : win1_4.index t (1 : Fin 2) = 0 := congrFun ht 1
  refine ⟨t, flush1_4 t, ?_⟩
  rw [mem_blk1]
  intro a
  match a with
  | ⟨0, _⟩ => show win1_4.index t (0 : Fin 2) * 10000 ≤ (i 0).val ∧ (i 0).val < win1_4.index t (0 : Fin 2) * 10000 + 10000; omega
  | ⟨1, _⟩ => show win1_4.index t (1 : Fin 2) * 64 ≤ (i 1).val ∧ (i 1).val < win1_4.index t (1 : Fin 2) * 64 + 64; omega

/-- THE OUTPUT ARRAY after the region: the dense stage's function of the arrays found at entry, everywhere. -/
theorem region1_array (c : Dev nD) :
    (dat1 (F := Ideal) V c).arrAt 4 cfg1.N = relu (affine (V c main_v23) (V c main_v12) (V c main_arg3) (V c main_v24)) :=
  (dat1 (F := Ideal) V c).arrAt_eq_of_cover 4 _ (fun t _ => flushed1_eq V c t) (fun i => cover1 i)

end Cert.KernelIdeal.Dense

end
-- ==== Proof.Dense3.lean ====
import proofs.«118983_j69097433858683_1_alg».proof.Proof.Gen.KernelIdeal.Frame
import proofs.«118983_j69097433858683_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Dense

open Cert.KernelIdeal Cert.KernelIdeal.Gen Cert.GraphConv Idealize.ShloMosaic Idealize.ShloMosaic.TcCoe Idealize.SL.Sem Idealize.ShloMosaic.ValueIdx

variable (V : (c : Dev nD) → (b : Ref sig .tc) → Buf (Elt Ideal) ((c : Thread nD τ).loc b))

/-! ## The matrix product at an output index -/

/-- The left operand's row coordinate at output index `i` is `i`'s row. -/
theorem lhs3_0 (i : S10000x32.Idx) (q : dot_S10000x64_S64x32_S10000x32_1_0_0_1_n_n.contr.Idx) :
    (dot_S10000x64_S64x32_S10000x32_1_0_0_1_n_n.lhsIdx i q 0).val = (i 0).val := by
  unfold DotDims.lhsIdx
  rw [dif_neg (show ¬(0 : Fin S10000x64.rank) ∈ dot_S10000x64_S64x32_S10000x32_1_0_0_1_n_n.lhsBatch by decide), dif_pos (show (0 : Fin S10000x64.rank) ∈ dot_S10000x64_S64x32_S10000x32_1_0_0_1_n_n.lhsNonContracting by decide)]
  rfl
/-- The left operand's column coordinate is the contracted coordinate. -/
theorem lhs3_1 (i : S10000x32.Idx) (q : dot_S10000x64_S64x32_S10000x32_1_0_0_1_n_n.contr.Idx) :
    (dot_S10000x64_S64x32_S10000x32_1_0_0_1_n_n.lhsIdx i q 1).val = (q ⟨0, by decide⟩).val :=
  dot_S10000x64_S64x32_S10000x32_1_0_0_1_n_n.lhsIdx_val_of_single rfl i q
/-- The right operand's row coordinate is the contracted coordinate. -/
theorem rhs3_0 (i : S10000x32.Idx) (q : dot_S10000x64_S64x32_S10000x32_1_0_0_1_n_n.contr.Idx) :
    (dot_S10000x64_S64x32_S10000x32_1_0_0_1_n_n.rhsIdx i q 0).val = (q ⟨0, by decide⟩).val :=
  dot_S10000x64_S64x32_S10000x32_1_0_0_1_n_n.rhsIdx_val_of_single rfl i q
/-- The right operand's column coordinate at output index `i` is `i`'s column. -/
theorem rhs3_1 (i : S10000x32.Idx) (q : dot_S10000x64_S64x32_S10000x32_1_0_0_1_n_n.contr.Idx) :
    (dot_S10000x64_S64x32_S10000x32_1_0_0_1_n_n.rhsIdx i q 1).val = (i 1).val := by
  unfold DotDims.rhsIdx
  rw [dif_neg (show ¬(1 : Fin S64x32.rank) ∈ dot_S10000x64_S64x32_S10000x32_1_0_0_1_n_n.rhsBatch by decide), dif_pos (show (1 : Fin S64x32.rank) ∈ dot_S10000x64_S64x32_S10000x32_1_0_0_1_n_n.rhsNonContracting by decide)]
  rfl

/-- The product into a zero accumulator, read at row `p` and column `q`: the sum over the 64 contracted positions
    of the left operand's row entries times the right operand's column entries. -/
theorem matmul3_apply (a : FVec Ideal S10000x64 .bf16) (b : FVec Ideal S64x32 .bf16) (p : Fin 10000) (q : Fin 32) :
    FloatOps.matmul dot_S10000x64_S64x32_S10000x32_1_0_0_1_n_n none a b (constant (F := Ideal) S10000x32 .f32 0x00000000#32) (ix2 p q)
      = ∑ r : Fin 64, a (ix2 p r) * b (ix2 r q) := by
  rw [Ideal.matmul_constant_zero_apply, ← Equiv.sum_comp (contrEquiv1 dot_S10000x64_S64x32_S10000x32_1_0_0_1_n_n 64 rfl rfl).symm]
  refine Finset.sum_congr rfl fun k _ => ?_
  have hk := contrEquiv1_symm_val dot_S10000x64_S64x32_S10000x32_1_0_0_1_n_n 64 rfl rfl k
  have el : dot_S10000x64_S64x32_S10000x32_1_0_0_1_n_n.lhsIdx (ix2 p q) ((contrEquiv1 dot_S10000x64_S64x32_S10000x32_1_0_0_1_n_n 64 rfl rfl).symm k) = ix2 p k := funext fun a => Fin.ext (by
    match a with
    | ⟨0, _⟩ => exact lhs3_0 _ _
    | ⟨1, _⟩ => exact (lhs3_1 _ _).trans hk)
  have er : dot_S10000x64_S64x32_S10000x32_1_0_0_1_n_n.rhsIdx (ix2 p q) ((contrEquiv1 dot_S10000x64_S64x32_S10000x32_1_0_0_1_n_n 64 rfl rfl).symm k) = ix2 k q := funext fun a => Fin.ext (by
    match a with
    | ⟨0, _⟩ => exact (rhs3_0 _ _).trans hk
    | ⟨1, _⟩ => exact rhs3_1 _ _)
  rw [el, er]

/-! ## The body's arithmetic at an index -/

/-- What the body stores at row `p`, column `q` of its block, from the four blocks it loads: the row of `x0` scaled by
    the row's entry of the column `x1`, times column `q` of `x2`, plus the bias row's entry. -/
theorem pay3_apply (x0 : Vec Ideal S10000x64 .f32) (x1 : Vec Ideal S10000x1 .f32) (x2 : Vec Ideal S64x32 .f32) (x3 : Vec Ideal S1x32 .f32)
    (p : Fin 10000) (q : Fin 32) :
    k3_pay1 (F := Ideal) x0 x1 x2 x3 (ix2 p q)
      = (∑ r : Fin 64, (x0 (ix2 p r) * x1 (ix2 p 0)) * x2 (ix2 r q)) + x3 (ix2 0 q) := by
  unfold k3_pay1
  simp only [shapeCast_self]
  rw [addf_apply]
  refine congrArg₂ (· + ·) ((matmul3_apply _ _ p q).trans (Finset.sum_congr rfl fun r _ => ?_)) ?_
  · show (x0 (ix2 p r) * broadcastTo S10000x64 x1 broadcasts_S10000x1_S10000x64 (ix2 p r)) * x2 (ix2 r q) = _
    rw [broadcastTo_apply x1 broadcasts_S10000x1_S10000x64 (ix2 p r) (ix2 p 0) (fun a => match a with
      | ⟨0, _⟩ => by show p.val = if (10000 : Nat) = 1 then 0 else p.val; rw [if_neg (by decide)]
      | ⟨1, _⟩ => by show 0 = if (1 : Nat) = 1 then 0 else r.val; rw [if_pos rfl])]
  · exact broadcastTo_apply x3 broadcasts_S1x32_S10000x32 (ix2 p q) (ix2 0 q) (fun a => match a with
      | ⟨0, _⟩ => by show 0 = if (1 : Nat) = 1 then 0 else p.val; rw [if_pos rfl]
      | ⟨1, _⟩ => by show q.val = if (32 : Nat) = 1 then 0 else q.val; rw [if_neg (by decide)])

/-- The body's arithmetic on four blocks that are read off four arrays — row `p` of the first two at the arrays' row `R`,
    column `q` of the last two at the arrays' column `C` — is the dense stage's function of the arrays at `(R, C)`. -/
theorem pay3_of_blocks (x0 : Vec Ideal S10000x64 .f32) (x1 : Vec Ideal S10000x1 .f32) (x2 : Vec Ideal S64x32 .f32) (x3 : Vec Ideal S1x32 .f32)
    (A0 : Mat 50000 64) (Ab : Mat 50000 1) (A2 : Mat 64 32) (A3 : Mat 1 32) (p : Fin 10000) (q : Fin 32) (R : Fin 50000) (C : Fin 32)
    (h0 : ∀ r : Fin 64, x0 (ix2 p r) = A0 (ix2 R r)) (h1 : x1 (ix2 p 0) = Ab (ix2 R 0))
    (h2 : ∀ r : Fin 64, x2 (ix2 r q) = A2 (ix2 r C)) (h3 : x3 (ix2 0 q) = A3 (ix2 0 C)) :
    k3_pay1 (F := Ideal) x0 x1 x2 x3 (ix2 p q) = (affine A0 Ab A2 A3) (ix2 R C) := by
  refine (pay3_apply x0 x1 x2 x3 p q).trans ?_
  rw [affine_apply]
  refine congrArg₂ (· + ·) (Finset.sum_congr rfl fun r _ => ?_) h3
  show (x0 (ix2 p r) * x1 (ix2 p 0)) * x2 (ix2 r q) = (A0 (ix2 R r) * Ab (ix2 R 0)) * A2 (ix2 r C)
  rw [h0 r, h1, h2 r]

/-! ## From the blocks to the array -/

/-- The zero offsets of the body's whole-buffer accesses. -/
theorem hz3 : (![0, 0] : Fin 2 → Nat) = fun _ => 0 := funext fun a => by fin_cases a <;> rfl

/-- The printed index maps, decided over the grid: the two row-blocked inputs move with the output's row block, every
    column block index is 0, the weights and the bias row stay at block (0, 0), and the output's row block index is at most 4. -/
theorem idx_facts3 : ∀ t : Fin cfg3.N, win3_0.index t (0 : Fin 2) = win3_4.index t (0 : Fin 2)
    ∧ win3_0.index t (1 : Fin 2) = 0
    ∧ win3_1.index t (0 : Fin 2) = win3_4.index t (0 : Fin 2)
    ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (1 : Fin 2) = 0
    ∧ win3_4.index t (0 : Fin 2) ≤ 4 :=
  (by decide +kernel : ∀ t : Fin grid3.N, _)

/-- Every one of the five row blocks is some point's. -/
theorem idx_onto3 : ∀ (q0 : Fin 5), ∃ t : Fin cfg3.N, win3_4.index t = ![q0.val, 0] :=
  (by decide +kernel : ∀ (q0 : Fin 5), ∃ t : Fin grid3.N, win3_4.index t = ![q0.val, 0])

/-- The feature block at point `t`, row `p`: row `R` of the feature array, `R` the output block's row. -/
theorem blk3_0 (c : Dev nD) (t : Fin cfg3.N) (p : Fin 10000) (r : Fin 64) (R : Fin 50000)
    (hR : R.val = win3_4.index t (0 : Fin 2) * 10000 + 1 * p.val) :
    iblk3 (F := Ideal) V c 0 t (ix2 p r) = V c main_v36 (ix2 R r) := by
  obtain ⟨e0, e1, e2, e3, e4, e5, e6, e7, e8, e9⟩ := idx_facts3 t
  show V c main_v36 (((cfg3.win 0).blk t).view.emb (ix2 p r)) = V c main_v36 (ix2 R r)
  refine congrArg (V c main_v36) (funext fun a => Fin.ext ?_)
  match a with
  | ⟨0, _⟩ => show win3_0.index t (0 : Fin 2) * 10000 + 1 * p.val = R.val; omega
  | ⟨1, _⟩ => show win3_0.index t (1 : Fin 2) * 64 + 1 * r.val = r.val; omega

/-- The scaling column's block at point `t`, row `p`: entry `R` of the column. -/
theorem blk3_1 (c : Dev nD) (t : Fin cfg3.N) (p : Fin 10000) (R : Fin 50000)
    (hR : R.val = win3_4.index t (0 : Fin 2) * 10000 + 1 * p.val) :
    iblk3 (F := Ideal) V c 1 t (ix2 p 0) = V c main_v12 (ix2 R 0) := by
  obtain ⟨e0, e1, e2, e3, e4, e5, e6, e7, e8, e9⟩ := idx_facts3 t
  show V c main_v12 (((cfg3.win 1).blk t).view.emb (ix2 p 0)) = V c main_v12 (ix2 R 0)
  refine congrArg (V c main_v12) (funext fun a => Fin.ext ?_)
  match a with
  | ⟨0, _⟩ => show win3_1.index t (0 : Fin 2) * 10000 + 1 * p.val = R.val; omega
  | ⟨1, _⟩ => show win3_1.index t (1 : Fin 2) * 1 + 1 * 0 = 0; omega

/-- The weights' block is the whole weight matrix at every point. -/
theorem blk3_2 (c : Dev nD) (t : Fin cfg3.N) (r : Fin 64) (q : Fin 32) (C : Fin 32) (hC : C.val = win3_4.index t (1 : Fin 2) * 32 + 1 * q.val) :
    iblk3 (F := Ideal) V c 2 t (ix2 r q) = V c main_arg5 (ix2 r C) := by
  obtain ⟨e0, e1, e2, e3, e4, e5, e6, e7, e8, e9⟩ := idx_facts3 t
  show V c main_arg5 (((cfg3.win 2).blk t).view.emb (ix2 r q)) = V c main_arg5 (ix2 r C)
  refine congrArg (V c main_arg5) (funext fun a => Fin.ext ?_)
  match a with
  | ⟨0, _⟩ => show win3_2.index t (0 : Fin 2) * 64 + 1 * r.val = r.val; omega
  | ⟨1, _⟩ => show win3_2.index t (1 : Fin 2) * 32 + 1 * q.val = C.val; omega

/-- The bias row's block is the whole bias row at every point. -/
theorem blk3_3 (c : Dev nD) (t : Fin cfg3.N) (q : Fin 32) (C : Fin 32) (hC : C.val = win3_4.index t (1 : Fin 2) * 32 + 1 * q.val) :
    iblk3 (F := Ideal) V c 3 t (ix2 0 q) = V c main_v37 (ix2 0 C) := by
  obtain ⟨e0, e1, e2, e3, e4, e5, e6, e7, e8, e9⟩ := idx_facts3 t
  show V c main_v37 (((cfg3.win 3).blk t).view.emb (ix2 0 q)) = V c main_v37 (ix2 0 C)
  refine congrArg (V c main_v37) (funext fun a => Fin.ext ?_)
  match a with
  | ⟨0, _⟩ => show win3_3.index t (0 : Fin 2) * 1 + 1 * 0 = 0; omega
  | ⟨1, _⟩ => show win3_3.index t (1 : Fin 2) * 32 + 1 * q.val = C.val; omega

/-- WHAT POINT `t` WRITES BACK is block `t` of the dense stage's whole-array function of the arrays found at entry. -/
theorem flushed3_eq (c : Dev nD) (t : Fin cfg3.N) :
    (dat3 (F := Ideal) V c).flushed 4 t = ((cfg3.win 4).blk t).view.read (Elt Ideal) (affine (V c main_v36) (V c main_v12) (V c main_arg5) (V c main_v37)) := by
  show (cfg3.win 4).cut (grid3.coords t) ((dat3 (F := Ideal) V c).after 4 t) = _
  rw [after3_4]
  unfold out3_4
  rw [View.canon_unit_zero hz3]
  simp only [View.ld_unit_zero (S := S10000x64) hz3, View.ld_unit_zero (S := S10000x1) hz3, View.ld_unit_zero (S := S64x32) hz3, View.ld_unit_zero (S := S1x32) hz3]
  funext j
  obtain ⟨p, q, rfl⟩ : ∃ (p : Fin 10000) (q : Fin 32), j = ix2 p q := ⟨j 0, j 1, eq_ix2 j⟩
  obtain ⟨R, C, hi⟩ : ∃ (R : Fin 50000) (C : Fin 32), ((cfg3.win 4).blk t).view.emb (ix2 p q) = ix2 R C := ⟨_, _, eq_ix2 _⟩
  have hR : R.val = win3_4.index t (0 : Fin 2) * 10000 + 1 * p.val := (congrArg (fun z : S50000x32.Idx => (z 0).val) hi).symm
  have hC : C.val = win3_4.index t (1 : Fin 2) * 32 + 1 * q.val := (congrArg (fun z : S50000x32.Idx => (z 1).val) hi).symm
  show _ = (affine (V c main_v36) (V c main_v12) (V c main_arg5) (V c main_v37)) (((cfg3.win 4).blk t).view.emb (ix2 p q))
  rw [hi]
  exact pay3_of_blocks _ _ _ _ _ _ _ _ p q R C (fun r => blk3_0 V c t p r R hR) (blk3_1 V c t p R hR)
    (fun r => blk3_2 V c t r q C hC) (blk3_3 V c t q C hC)

/-- An index of the output array is in point `t`'s block iff each coordinate is in the block's range on its axis. -/
theorem mem_blk3 (t : Fin cfg3.N) (i : S50000x32.Idx) :
    i ∈ ((cfg3.win 4).blk t).view.set ↔ ∀ a : Fin 2, win3_4.index t a * S10000x32.size a ≤ (i a).val ∧ (i a).val < win3_4.index t a * S10000x32.size a + S10000x32.size a := by
  show i ∈ ((View.whole main_v38).slice (win3_4.rect t)).set ↔ _
  rw [View.set_slice_whole, Rect.mem_set_unit]
  exact Iff.rfl

/-- The five row blocks tile the output array: row `r` is in the block of the point whose row block index is `r / 10000`. -/
theorem cover3 (i : S50000x32.Idx) :
    ∃ t : Fin cfg3.N, (cfg3.win 4).flush t = true ∧ i ∈ ((cfg3.win 4).blk t).view.set := by
  have hi0 : (i 0).val < 50000 := (i 0).isLt
  have hi1 : (i 1).val < 32 := (i 1).isLt
  obtain ⟨t, ht⟩ := idx_onto3 ⟨(i 0).val / 10000, by omega⟩
  have q0 : win3_4.index t (0 : Fin 2) = (i 0).val / 10000 := congrFun ht 0
  have q1 : win3_4.index t (1 : Fin 2) = 0 := congrFun ht 1
  refine ⟨t, flush3_4 t, ?_⟩
  rw [mem_blk3]
  intro a
  match a with
  | ⟨0, _⟩ => show win3_4.index t (0 : Fin 2) * 10000 ≤ (i 0).val ∧ (i 0).val < win3_4.index t (0 : Fin 2) * 10000 + 10000; omega
  | ⟨1, _⟩ => show win3_4.index t (1 : Fin 2) * 32 ≤ (i 1).val ∧ (i 1).val < win3_4.index t (1 : Fin 2) * 32 + 32; omega

/-- THE OUTPUT ARRAY after the region: the dense stage's function of the arrays found at entry, everywhere. -/
theorem region3_array (c : Dev nD) :
    (dat3 (F := Ideal) V c).arrAt 4 cfg3.N = affine (V c main_v36) (V c main_v12) (V c main_arg5) (V c main_v37) :=
  (dat3 (F := Ideal) V c).arrAt_eq_of_cover 4 _ (fun t _ => flushed3_eq V c t) (fun i => cover3 i)

end Cert.KernelIdeal.Dense

end
-- ==== Proof.Dense5.lean ====
import proofs.«118983_j69097433858683_1_alg».proof.Proof.Gen.KernelIdeal.Frame
import proofs.«118983_j69097433858683_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Dense

open Cert.KernelIdeal Cert.KernelIdeal.Gen Cert.GraphConv Idealize.ShloMosaic Idealize.ShloMosaic.TcCoe Idealize.SL.Sem Idealize.ShloMosaic.ValueIdx

variable (V : (c : Dev nD) → (b : Ref sig .tc) → Buf (Elt Ideal) ((c : Thread nD τ).loc b))

/-! ## The matrix product at an output index -/

/-- The left operand's row coordinate at output index `i` is `i`'s row. -/
theorem lhs5_0 (i : S10000x128.Idx) (q : dot_S10000x32_S32x128_S10000x128_1_0_0_1_n_n.contr.Idx) :
    (dot_S10000x32_S32x128_S10000x128_1_0_0_1_n_n.lhsIdx i q 0).val = (i 0).val := by
  unfold DotDims.lhsIdx
  rw [dif_neg (show ¬(0 : Fin S10000x32.rank) ∈ dot_S10000x32_S32x128_S10000x128_1_0_0_1_n_n.lhsBatch by decide), dif_pos (show (0 : Fin S10000x32.rank) ∈ dot_S10000x32_S32x128_S10000x128_1_0_0_1_n_n.lhsNonContracting by decide)]
  rfl
/-- The left operand's column coordinate is the contracted coordinate. -/
theorem lhs5_1 (i : S10000x128.Idx) (q : dot_S10000x32_S32x128_S10000x128_1_0_0_1_n_n.contr.Idx) :
    (dot_S10000x32_S32x128_S10000x128_1_0_0_1_n_n.lhsIdx i q 1).val = (q ⟨0, by decide⟩).val :=
  dot_S10000x32_S32x128_S10000x128_1_0_0_1_n_n.lhsIdx_val_of_single rfl i q
/-- The right operand's row coordinate is the contracted coordinate. -/
theorem rhs5_0 (i : S10000x128.Idx) (q : dot_S10000x32_S32x128_S10000x128_1_0_0_1_n_n.contr.Idx) :
    (dot_S10000x32_S32x128_S10000x128_1_0_0_1_n_n.rhsIdx i q 0).val = (q ⟨0, by decide⟩).val :=
  dot_S10000x32_S32x128_S10000x128_1_0_0_1_n_n.rhsIdx_val_of_single rfl i q
/-- The right operand's column coordinate at output index `i` is `i`'s column. -/
theorem rhs5_1 (i : S10000x128.Idx) (q : dot_S10000x32_S32x128_S10000x128_1_0_0_1_n_n.contr.Idx) :
    (dot_S10000x32_S32x128_S10000x128_1_0_0_1_n_n.rhsIdx i q 1).val = (i 1).val := by
  unfold DotDims.rhsIdx
  rw [dif_neg (show ¬(1 : Fin S32x128.rank) ∈ dot_S10000x32_S32x128_S10000x128_1_0_0_1_n_n.rhsBatch by decide), dif_pos (show (1 : Fin S32x128.rank) ∈ dot_S10000x32_S32x128_S10000x128_1_0_0_1_n_n.rhsNonContracting by decide)]
  rfl

/-- The product into a zero accumulator, read at row `p` and column `q`: the sum over the 32 contracted positions
    of the left operand's row entries times the right operand's column entries. -/
theorem matmul5_apply (a : FVec Ideal S10000x32 .bf16) (b : FVec Ideal S32x128 .bf16) (p : Fin 10000) (q : Fin 128) :
    FloatOps.matmul dot_S10000x32_S32x128_S10000x128_1_0_0_1_n_n none a b (constant (F := Ideal) S10000x128 .f32 0x00000000#32) (ix2 p q)
      = ∑ r : Fin 32, a (ix2 p r) * b (ix2 r q) := by
  rw [Ideal.matmul_constant_zero_apply, ← Equiv.sum_comp (contrEquiv1 dot_S10000x32_S32x128_S10000x128_1_0_0_1_n_n 32 rfl rfl).symm]
  refine Finset.sum_congr rfl fun k _ => ?_
  have hk := contrEquiv1_symm_val dot_S10000x32_S32x128_S10000x128_1_0_0_1_n_n 32 rfl rfl k
  have el : dot_S10000x32_S32x128_S10000x128_1_0_0_1_n_n.lhsIdx (ix2 p q) ((contrEquiv1 dot_S10000x32_S32x128_S10000x128_1_0_0_1_n_n 32 rfl rfl).symm k) = ix2 p k := funext fun a => Fin.ext (by
    match a with
    | ⟨0, _⟩ => exact lhs5_0 _ _
    | ⟨1, _⟩ => exact (lhs5_1 _ _).trans hk)
  have er : dot_S10000x32_S32x128_S10000x128_1_0_0_1_n_n.rhsIdx (ix2 p q) ((contrEquiv1 dot_S10000x32_S32x128_S10000x128_1_0_0_1_n_n 32 rfl rfl).symm k) = ix2 k q := funext fun a => Fin.ext (by
    match a with
    | ⟨0, _⟩ => exact (rhs5_0 _ _).trans hk
    | ⟨1, _⟩ => exact rhs5_1 _ _)
  rw [el, er]

/-! ## The body's arithmetic at an index -/

/-- What the body stores at row `p`, column `q` of its block, from the four blocks it loads: the row of `x0` scaled by
    the row's entry of the column `x1`, times column `q` of `x2`, plus the bias row's entry. -/
theorem pay5_apply (x0 : Vec Ideal S10000x32 .f32) (x1 : Vec Ideal S10000x1 .f32) (x2 : Vec Ideal S32x128 .f32) (x3 : Vec Ideal S1x128 .f32)
    (p : Fin 10000) (q : Fin 128) :
    k5_pay1 (F := Ideal) x0 x1 x2 x3 (ix2 p q)
      = (∑ r : Fin 32, (x0 (ix2 p r) * x1 (ix2 p 0)) * x2 (ix2 r q)) + x3 (ix2 0 q) := by
  unfold k5_pay1
  simp only [shapeCast_self]
  rw [addf_apply]
  refine congrArg₂ (· + ·) ((matmul5_apply _ _ p q).trans (Finset.sum_congr rfl fun r _ => ?_)) ?_
  · show (x0 (ix2 p r) * broadcastTo S10000x32 x1 broadcasts_S10000x1_S10000x32 (ix2 p r)) * x2 (ix2 r q) = _
    rw [broadcastTo_apply x1 broadcasts_S10000x1_S10000x32 (ix2 p r) (ix2 p 0) (fun a => match a with
      | ⟨0, _⟩ => by show p.val = if (10000 : Nat) = 1 then 0 else p.val; rw [if_neg (by decide)]
      | ⟨1, _⟩ => by show 0 = if (1 : Nat) = 1 then 0 else r.val; rw [if_pos rfl])]
  · exact broadcastTo_apply x3 broadcasts_S1x128_S10000x128 (ix2 p q) (ix2 0 q) (fun a => match a with
      | ⟨0, _⟩ => by show 0 = if (1 : Nat) = 1 then 0 else p.val; rw [if_pos rfl]
      | ⟨1, _⟩ => by show q.val = if (128 : Nat) = 1 then 0 else q.val; rw [if_neg (by decide)])

/-- The body's arithmetic on four blocks that are read off four arrays — row `p` of the first two at the arrays' row `R`,
    column `q` of the last two at the arrays' column `C` — is the dense stage's function of the arrays at `(R, C)`. -/
theorem pay5_of_blocks (x0 : Vec Ideal S10000x32 .f32) (x1 : Vec Ideal S10000x1 .f32) (x2 : Vec Ideal S32x128 .f32) (x3 : Vec Ideal S1x128 .f32)
    (A0 : Mat 50000 32) (Ab : Mat 50000 1) (A2 : Mat 32 128) (A3 : Mat 1 128) (p : Fin 10000) (q : Fin 128) (R : Fin 50000) (C : Fin 128)
    (h0 : ∀ r : Fin 32, x0 (ix2 p r) = A0 (ix2 R r)) (h1 : x1 (ix2 p 0) = Ab (ix2 R 0))
    (h2 : ∀ r : Fin 32, x2 (ix2 r q) = A2 (ix2 r C)) (h3 : x3 (ix2 0 q) = A3 (ix2 0 C)) :
    k5_pay1 (F := Ideal) x0 x1 x2 x3 (ix2 p q) = (affine A0 Ab A2 A3) (ix2 R C) := by
  refine (pay5_apply x0 x1 x2 x3 p q).trans ?_
  rw [affine_apply]
  refine congrArg₂ (· + ·) (Finset.sum_congr rfl fun r _ => ?_) h3
  show (x0 (ix2 p r) * x1 (ix2 p 0)) * x2 (ix2 r q) = (A0 (ix2 R r) * Ab (ix2 R 0)) * A2 (ix2 r C)
  rw [h0 r, h1, h2 r]

/-! ## From the blocks to the array -/

/-- The zero offsets of the body's whole-buffer accesses. -/
theorem hz5 : (![0, 0] : Fin 2 → Nat) = fun _ => 0 := funext fun a => by fin_cases a <;> rfl

/-- The printed index maps, decided over the grid: the two row-blocked inputs move with the output's row block, every
    column block index is 0, the weights and the bias row stay at block (0, 0), and the output's row block index is at most 4. -/
theorem idx_facts5 : ∀ t : Fin cfg5.N, win5_0.index t (0 : Fin 2) = win5_4.index t (0 : Fin 2)
    ∧ win5_0.index t (1 : Fin 2) = 0
    ∧ win5_1.index t (0 : Fin 2) = win5_4.index t (0 : Fin 2)
    ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (1 : Fin 2) = 0
    ∧ win5_4.index t (0 : Fin 2) ≤ 4 :=
  (by decide +kernel : ∀ t : Fin grid5.N, _)

/-- Every one of the five row blocks is some point's. -/
theorem idx_onto5 : ∀ (q0 : Fin 5), ∃ t : Fin cfg5.N, win5_4.index t = ![q0.val, 0] :=
  (by decide +kernel : ∀ (q0 : Fin 5), ∃ t : Fin grid5.N, win5_4.index t = ![q0.val, 0])

/-- The feature block at point `t`, row `p`: row `R` of the feature array, `R` the output block's row. -/
theorem blk5_0 (c : Dev nD) (t : Fin cfg5.N) (p : Fin 10000) (r : Fin 32) (R : Fin 50000)
    (hR : R.val = win5_4.index t (0 : Fin 2) * 10000 + 1 * p.val) :
    iblk5 (F := Ideal) V c 0 t (ix2 p r) = V c main_v49 (ix2 R r) := by
  obtain ⟨e0, e1, e2, e3, e4, e5, e6, e7, e8, e9⟩ := idx_facts5 t
  show V c main_v49 (((cfg5.win 0).blk t).view.emb (ix2 p r)) = V c main_v49 (ix2 R r)
  refine congrArg (V c main_v49) (funext fun a => Fin.ext ?_)
  match a with
  | ⟨0, _⟩ => show win5_0.index t (0 : Fin 2) * 10000 + 1 * p.val = R.val; omega
  | ⟨1, _⟩ => show win5_0.index t (1 : Fin 2) * 32 + 1 * r.val = r.val; omega

/-- The scaling column's block at point `t`, row `p`: entry `R` of the column. -/
theorem blk5_1 (c : Dev nD) (t : Fin cfg5.N) (p : Fin 10000) (R : Fin 50000)
    (hR : R.val = win5_4.index t (0 : Fin 2) * 10000 + 1 * p.val) :
    iblk5 (F := Ideal) V c 1 t (ix2 p 0) = V c main_v12 (ix2 R 0) := by
  obtain ⟨e0, e1, e2, e3, e4, e5, e6, e7, e8, e9⟩ := idx_facts5 t
  show V c main_v12 (((cfg5.win 1).blk t).view.emb (ix2 p 0)) = V c main_v12 (ix2 R 0)
  refine congrArg (V c main_v12) (funext fun a => Fin.ext ?_)
  match a with
  | ⟨0, _⟩ => show win5_1.index t (0 : Fin 2) * 10000 + 1 * p.val = R.val; omega
  | ⟨1, _⟩ => show win5_1.index t (1 : Fin 2) * 1 + 1 * 0 = 0; omega

/-- The weights' block is the whole weight matrix at every point. -/
theorem blk5_2 (c : Dev nD) (t : Fin cfg5.N) (r : Fin 32) (q : Fin 128) (C : Fin 128) (hC : C.val = win5_4.index t (1 : Fin 2) * 128 + 1 * q.val) :
    iblk5 (F := Ideal) V c 2 t (ix2 r q) = V c main_arg7 (ix2 r C) := by
  obtain ⟨e0, e1, e2, e3, e4, e5, e6, e7, e8, e9⟩ := idx_facts5 t
  show V c main_arg7 (((cfg5.win 2).blk t).view.emb (ix2 r q)) = V c main_arg7 (ix2 r C)
  refine congrArg (V c main_arg7) (funext fun a => Fin.ext ?_)
  match a with
  | ⟨0, _⟩ => show win5_2.index t (0 : Fin 2) * 32 + 1 * r.val = r.val; omega
  | ⟨1, _⟩ => show win5_2.index t (1 : Fin 2) * 128 + 1 * q.val = C.val; omega

/-- The bias row's block is the whole bias row at every point. -/
theorem blk5_3 (c : Dev nD) (t : Fin cfg5.N) (q : Fin 128) (C : Fin 128) (hC : C.val = win5_4.index t (1 : Fin 2) * 128 + 1 * q.val) :
    iblk5 (F := Ideal) V c 3 t (ix2 0 q) = V c main_v50 (ix2 0 C) := by
  obtain ⟨e0, e1, e2, e3, e4, e5, e6, e7, e8, e9⟩ := idx_facts5 t
  show V c main_v50 (((cfg5.win 3).blk t).view.emb (ix2 0 q)) = V c main_v50 (ix2 0 C)
  refine congrArg (V c main_v50) (funext fun a => Fin.ext ?_)
  match a with
  | ⟨0, _⟩ => show win5_3.index t (0 : Fin 2) * 1 + 1 * 0 = 0; omega
  | ⟨1, _⟩ => show win5_3.index t (1 : Fin 2) * 128 + 1 * q.val = C.val; omega

/-- WHAT POINT `t` WRITES BACK is block `t` of the dense stage's whole-array function of the arrays found at entry. -/
theorem flushed5_eq (c : Dev nD) (t : Fin cfg5.N) :
    (dat5 (F := Ideal) V c).flushed 4 t = ((cfg5.win 4).blk t).view.read (Elt Ideal) (affine (V c main_v49) (V c main_v12) (V c main_arg7) (V c main_v50)) := by
  show (cfg5.win 4).cut (grid5.coords t) ((dat5 (F := Ideal) V c).after 4 t) = _
  rw [after5_4]
  unfold out5_4
  rw [View.canon_unit_zero hz5]
  simp only [View.ld_unit_zero (S := S10000x32) hz5, View.ld_unit_zero (S := S10000x1) hz5, View.ld_unit_zero (S := S32x128) hz5, View.ld_unit_zero (S := S1x128) hz5]
  funext j
  obtain ⟨p, q, rfl⟩ : ∃ (p : Fin 10000) (q : Fin 128), j = ix2 p q := ⟨j 0, j 1, eq_ix2 j⟩
  obtain ⟨R, C, hi⟩ : ∃ (R : Fin 50000) (C : Fin 128), ((cfg5.win 4).blk t).view.emb (ix2 p q) = ix2 R C := ⟨_, _, eq_ix2 _⟩
  have hR : R.val = win5_4.index t (0 : Fin 2) * 10000 + 1 * p.val := (congrArg (fun z : S50000x128.Idx => (z 0).val) hi).symm
  have hC : C.val = win5_4.index t (1 : Fin 2) * 128 + 1 * q.val := (congrArg (fun z : S50000x128.Idx => (z 1).val) hi).symm
  show _ = (affine (V c main_v49) (V c main_v12) (V c main_arg7) (V c main_v50)) (((cfg5.win 4).blk t).view.emb (ix2 p q))
  rw [hi]
  exact pay5_of_blocks _ _ _ _ _ _ _ _ p q R C (fun r => blk5_0 V c t p r R hR) (blk5_1 V c t p R hR)
    (fun r => blk5_2 V c t r q C hC) (blk5_3 V c t q C hC)

/-- An index of the output array is in point `t`'s block iff each coordinate is in the block's range on its axis. -/
theorem mem_blk5 (t : Fin cfg5.N) (i : S50000x128.Idx) :
    i ∈ ((cfg5.win 4).blk t).view.set ↔ ∀ a : Fin 2, win5_4.index t a * S10000x128.size a ≤ (i a).val ∧ (i a).val < win5_4.index t a * S10000x128.size a + S10000x128.size a := by
  show i ∈ ((View.whole main_v51).slice (win5_4.rect t)).set ↔ _
  rw [View.set_slice_whole, Rect.mem_set_unit]
  exact Iff.rfl

/-- The five row blocks tile the output array: row `r` is in the block of the point whose row block index is `r / 10000`. -/
theorem cover5 (i : S50000x128.Idx) :
    ∃ t : Fin cfg5.N, (cfg5.win 4).flush t = true ∧ i ∈ ((cfg5.win 4).blk t).view.set := by
  have hi0 : (i 0).val < 50000 := (i 0).isLt
  have hi1 : (i 1).val < 128 := (i 1).isLt
  obtain ⟨t, ht⟩ := idx_onto5 ⟨(i 0).val / 10000, by omega⟩
  have q0 : win5_4.index t (0 : Fin 2) = (i 0).val / 10000 := congrFun ht 0
  have q1 : win5_4.index t (1 : Fin 2) = 0 := congrFun ht 1
  refine ⟨t, flush5_4 t, ?_⟩
  rw [mem_blk5]
  intro a
  match a with
  | ⟨0, _⟩ => show win5_4.index t (0 : Fin 2) * 10000 ≤ (i 0).val ∧ (i 0).val < win5_4.index t (0 : Fin 2) * 10000 + 10000; omega
  | ⟨1, _⟩ => show win5_4.index t (1 : Fin 2) * 128 ≤ (i 1).val ∧ (i 1).val < win5_4.index t (1 : Fin 2) * 128 + 128; omega

/-- THE OUTPUT ARRAY after the region: the dense stage's function of the arrays found at entry, everywhere. -/
theorem region5_array (c : Dev nD) :
    (dat5 (F := Ideal) V c).arrAt 4 cfg5.N = affine (V c main_v49) (V c main_v12) (V c main_arg7) (V c main_v50) :=
  (dat5 (F := Ideal) V c).arrAt_eq_of_cover 4 _ (fun t _ => flushed5_eq V c t) (fun i => cover5 i)

end Cert.KernelIdeal.Dense

end
-- ==== Proof.KernelChain.lean ====
/-
  The idealized kernel program's two results as functions of the argument arrays.

  The buffer contents at the fourteen segment boundaries are a fold from the launch memory. Walking it forward:
  the host operations before the first region leave the two degree columns; each row-scaling region leaves its
  output array at the entry matrix with its rows scaled; each stretch of host operations between regions gathers
  the scaled rows along the edges and sums them per destination node, and reshapes that layer's bias to a row; each
  dense region leaves its output array at the affine image of what it finds. At every boundary the argument arrays
  and the two columns are still what they were (`Inv`): a region changes only its output array, a host stretch only
  the fresh buffers it writes. The embedding's buffer is read by region 4 and written by nothing after region 3.
-/
import proofs.«118983_j69097433858683_1_alg».proof.Proof.Gen.KernelIdeal.Frame
import proofs.«118983_j69097433858683_1_alg».proof.Proof.HostStages
import proofs.«118983_j69097433858683_1_alg».proof.Proof.RefStages
import proofs.«118983_j69097433858683_1_alg».proof.Proof.DegOut
import proofs.«118983_j69097433858683_1_alg».proof.Proof.DegIn
import proofs.«118983_j69097433858683_1_alg».proof.Proof.Rows0
import proofs.«118983_j69097433858683_1_alg».proof.Proof.Rows2
import proofs.«118983_j69097433858683_1_alg».proof.Proof.Rows4
import proofs.«118983_j69097433858683_1_alg».proof.Proof.Dense1
import proofs.«118983_j69097433858683_1_alg».proof.Proof.Dense3
import proofs.«118983_j69097433858683_1_alg».proof.Proof.Dense5
import Idealize.ShloMosaic.Lib.StableHlo.Run

noncomputable section

namespace Cert.KernelIdeal.Chain

open Cert.KernelIdeal Cert.KernelIdeal.Gen Cert.GraphConv
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- Region 0 changes no buffer but its output array: an input window's array ends as entered, any other buffer
    is untouched. -/
theorem keep6 (b : Ref sig .tc) (hb : b ≠ main_v13) :
    W6 m ρ c (Proc.devRef .tc b) = W5 m ρ c (Proc.devRef .tc b) := by
  by_cases h : ∀ w, Pipeline.arrRef spec0 w ≠ b
  · exact W6_of_ne m ρ c b h
  · obtain ⟨w, hw⟩ := not_forall.mp h
    have e : Pipeline.arrRef spec0 w = b := not_not.mp hw
    subst e
    fin_cases w
    · exact (W6_arr m ρ c 0).trans (((dat0 (V5 m ρ) c).arrAt_in 0 rfl _).trans (A_eq0 (V5 m ρ) c 0))
    · exact (W6_arr m ρ c 1).trans (((dat0 (V5 m ρ) c).arrAt_in 1 rfl _).trans (A_eq0 (V5 m ρ) c 1))
    · exact absurd rfl hb

/-- Region 1 changes no buffer but its output array: an input window's array ends as entered, any other buffer
    is untouched. -/
theorem keep8 (b : Ref sig .tc) (hb : b ≠ main_v25) :
    W8 m ρ c (Proc.devRef .tc b) = W7 m ρ c (Proc.devRef .tc b) := by
  by_cases h : ∀ w, Pipeline.arrRef spec1 w ≠ b
  · exact W8_of_ne m ρ c b h
  · obtain ⟨w, hw⟩ := not_forall.mp h
    have e : Pipeline.arrRef spec1 w = b := not_not.mp hw
    subst e
    fin_cases w
    · exact (W8_arr m ρ c 0).trans (((dat1 (V7 m ρ) c).arrAt_in 0 rfl _).trans (A_eq1 (V7 m ρ) c 0))
    · exact (W8_arr m ρ c 1).trans (((dat1 (V7 m ρ) c).arrAt_in 1 rfl _).trans (A_eq1 (V7 m ρ) c 1))
    · exact (W8_arr m ρ c 2).trans (((dat1 (V7 m ρ) c).arrAt_in 2 rfl _).trans (A_eq1 (V7 m ρ) c 2))
    · exact (W8_arr m ρ c 3).trans (((dat1 (V7 m ρ) c).arrAt_in 3 rfl _).trans (A_eq1 (V7 m ρ) c 3))
    · exact absurd rfl hb

/-- Region 2 changes no buffer but its output array: an input window's array ends as entered, any other buffer
    is untouched. -/
theorem keep9 (b : Ref sig .tc) (hb : b ≠ main_v26) :
    W9 m ρ c (Proc.devRef .tc b) = W8 m ρ c (Proc.devRef .tc b) := by
  by_cases h : ∀ w, Pipeline.arrRef spec2 w ≠ b
  · exact W9_of_ne m ρ c b h
  · obtain ⟨w, hw⟩ := not_forall.mp h
    have e : Pipeline.arrRef spec2 w = b := not_not.mp hw
    subst e
    fin_cases w
    · exact (W9_arr m ρ c 0).trans (((dat2 (V8 m ρ) c).arrAt_in 0 rfl _).trans (A_eq2 (V8 m ρ) c 0))
    · exact (W9_arr m ρ c 1).trans (((dat2 (V8 m ρ) c).arrAt_in 1 rfl _).trans (A_eq2 (V8 m ρ) c 1))
    · exact absurd rfl hb

/-- Region 3 changes no buffer but its output array: an input window's array ends as entered, any other buffer
    is untouched. -/
theorem keep11 (b : Ref sig .tc) (hb : b ≠ main_v38) :
    W11 m ρ c (Proc.devRef .tc b) = W10 m ρ c (Proc.devRef .tc b) := by
  by_cases h : ∀ w, Pipeline.arrRef spec3 w ≠ b
  · exact W11_of_ne m ρ c b h
  · obtain ⟨w, hw⟩ := not_forall.mp h
    have e : Pipeline.arrRef spec3 w = b := not_not.mp hw
    subst e
    fin_cases w
    · exact (W11_arr m ρ c 0).trans (((dat3 (V10 m ρ) c).arrAt_in 0 rfl _).trans (A_eq3 (V10 m ρ) c 0))
    · exact (W11_arr m ρ c 1).trans (((dat3 (V10 m ρ) c).arrAt_in 1 rfl _).trans (A_eq3 (V10 m ρ) c 1))
    · exact (W11_arr m ρ c 2).trans (((dat3 (V10 m ρ) c).arrAt_in 2 rfl _).trans (A_eq3 (V10 m ρ) c 2))
    · exact (W11_arr m ρ c 3).trans (((dat3 (V10 m ρ) c).arrAt_in 3 rfl _).trans (A_eq3 (V10 m ρ) c 3))
    · exact absurd rfl hb

/-- Region 4 changes no buffer but its output array: an input window's array ends as entered, any other buffer
    is untouched. -/
theorem keep12 (b : Ref sig .tc) (hb : b ≠ main_v39) :
    W12 m ρ c (Proc.devRef .tc b) = W11 m ρ c (Proc.devRef .tc b) := by
  by_cases h : ∀ w, Pipeline.arrRef spec4 w ≠ b
  · exact W12_of_ne m ρ c b h
  · obtain ⟨w, hw⟩ := not_forall.mp h
    have e : Pipeline.arrRef spec4 w = b := not_not.mp hw
    subst e
    fin_cases w
    · exact (W12_arr m ρ c 0).trans (((dat4 (V11 m ρ) c).arrAt_in 0 rfl _).trans (A_eq4 (V11 m ρ) c 0))
    · exact (W12_arr m ρ c 1).trans (((dat4 (V11 m ρ) c).arrAt_in 1 rfl _).trans (A_eq4 (V11 m ρ) c 1))
    · exact absurd rfl hb

/-- Region 5 changes no buffer but its output array: an input window's array ends as entered, any other buffer
    is untouched. -/
theorem keep14 (b : Ref sig .tc) (hb : b ≠ main_v51) :
    W14 m ρ c (Proc.devRef .tc b) = W13 m ρ c (Proc.devRef .tc b) := by
  by_cases h : ∀ w, Pipeline.arrRef spec5 w ≠ b
  · exact W14_of_ne m ρ c b h
  · obtain ⟨w, hw⟩ := not_forall.mp h
    have e : Pipeline.arrRef spec5 w = b := not_not.mp hw
    subst e
    fin_cases w
    · exact (W14_arr m ρ c 0).trans (((dat5 (V13 m ρ) c).arrAt_in 0 rfl _).trans (A_eq5 (V13 m ρ) c 0))
    · exact (W14_arr m ρ c 1).trans (((dat5 (V13 m ρ) c).arrAt_in 1 rfl _).trans (A_eq5 (V13 m ρ) c 1))
    · exact (W14_arr m ρ c 2).trans (((dat5 (V13 m ρ) c).arrAt_in 2 rfl _).trans (A_eq5 (V13 m ρ) c 2))
    · exact (W14_arr m ρ c 3).trans (((dat5 (V13 m ρ) c).arrAt_in 3 rfl _).trans (A_eq5 (V13 m ρ) c 3))
    · exact absurd rfl hb

/-- Reads a buffer after one or several stretches of host operations: each operation's result buffer holds its
    function of its operands, every other buffer what it held before. -/
macro "host_read" : tactic =>
  `(tactic| (dsimp only [W1, W2, W3, W4, W5, W7, W10, W13, hostOps0, hostOps0_1, hostOps0_2, hostOps0_3, hostOps0_4, hostOps1, hostOps3, hostOps5]
             after_results_simp))

/-- What is known of the buffers at a stage boundary: the argument arrays as launched, and the two columns of
    reciprocal square roots of the clamped out- and in-degrees. -/
structure Inv (W : Valuation τ sig (Elt Ideal)) : Prop where
  a0 : W (Proc.devRef .tc main_arg0) = m ((c : Thread nD τ).loc main_arg0)
  a1 : W (Proc.devRef .tc main_arg1) = m ((c : Thread nD τ).loc main_arg1)
  a2 : W (Proc.devRef .tc main_arg2) = m ((c : Thread nD τ).loc main_arg2)
  a3 : W (Proc.devRef .tc main_arg3) = m ((c : Thread nD τ).loc main_arg3)
  a4 : W (Proc.devRef .tc main_arg4) = m ((c : Thread nD τ).loc main_arg4)
  a5 : W (Proc.devRef .tc main_arg5) = m ((c : Thread nD τ).loc main_arg5)
  a6 : W (Proc.devRef .tc main_arg6) = m ((c : Thread nD τ).loc main_arg6)
  a7 : W (Proc.devRef .tc main_arg7) = m ((c : Thread nD τ).loc main_arg7)
  a8 : W (Proc.devRef .tc main_arg8) = m ((c : Thread nD τ).loc main_arg8)
  so : W (Proc.devRef .tc main_v10) = invSqrtDeg (m ((c : Thread nD τ).loc main_arg1))
  si : W (Proc.devRef .tc main_v12) = invSqrtDeg (m ((c : Thread nD τ).loc main_arg2))

/-- At region 0's entry: the host operations before it have computed the two columns from the endpoint lists. -/
theorem inv5 : Inv m c (W5 m ρ c) where
  a0 := by host_read
  a1 := by host_read
  a2 := by host_read
  a3 := by host_read
  a4 := by host_read
  a5 := by host_read
  a6 := by host_read
  a7 := by host_read
  a8 := by host_read
  so := Degrees.invSqrt_out m ρ c
  si := Degrees.invSqrt_in m ρ c

/-- Region 0 writes only its output array. -/
theorem inv6 : Inv m c (W6 m ρ c) :=
  have h := inv5 m ρ c
  { a0 := (keep6 m ρ c main_arg0 (by decide)).trans h.a0
    a1 := (keep6 m ρ c main_arg1 (by decide)).trans h.a1
    a2 := (keep6 m ρ c main_arg2 (by decide)).trans h.a2
    a3 := (keep6 m ρ c main_arg3 (by decide)).trans h.a3
    a4 := (keep6 m ρ c main_arg4 (by decide)).trans h.a4
    a5 := (keep6 m ρ c main_arg5 (by decide)).trans h.a5
    a6 := (keep6 m ρ c main_arg6 (by decide)).trans h.a6
    a7 := (keep6 m ρ c main_arg7 (by decide)).trans h.a7
    a8 := (keep6 m ρ c main_arg8 (by decide)).trans h.a8
    so := (keep6 m ρ c main_v10 (by decide)).trans h.so
    si := (keep6 m ρ c main_v12 (by decide)).trans h.si }

/-- After region 0: the feature matrix with every row scaled by the out-degree column. -/
theorem val13 : W6 m ρ c (Proc.devRef .tc main_v13) = (scaleRows (a := 50000) (b := 128) (m ((c : Thread nD τ).loc main_arg0)) (invSqrtDeg (m ((c : Thread nD τ).loc main_arg1)))) := by
  have h := inv5 m ρ c
  refine (W6_arr m ρ c 2).trans ((Rows.region0_array (V5 m ρ) c).trans ?_)
  show scaleRows (W5 m ρ c (Proc.devRef .tc main_arg0)) (W5 m ρ c (Proc.devRef .tc main_v10)) = _
  rw [h.a0, h.so]

/-- The host operations between regions 0 and 1 write fresh buffers only. -/
theorem inv7 : Inv m c (W7 m ρ c) :=
  have h := inv6 m ρ c
  { a0 := by host_read; exact h.a0
    a1 := by host_read; exact h.a1
    a2 := by host_read; exact h.a2
    a3 := by host_read; exact h.a3
    a4 := by host_read; exact h.a4
    a5 := by host_read; exact h.a5
    a6 := by host_read; exact h.a6
    a7 := by host_read; exact h.a7
    a8 := by host_read; exact h.a8
    so := by host_read; exact h.so
    si := by host_read; exact h.si }

/-- The scaled rows gathered along the edges and summed per destination node. -/
theorem val23 : W7 m ρ c (Proc.devRef .tc main_v23) = (aggregate128 (scaleRows (a := 50000) (b := 128) (m ((c : Thread nD τ).loc main_arg0)) (invSqrtDeg (m ((c : Thread nD τ).loc main_arg1)))) (m ((c : Thread nD τ).loc main_arg1)) (m ((c : Thread nD τ).loc main_arg2))) := by
  have h := inv6 m ρ c
  have hv := val13 m ρ c
  host_read
  rw [h.a1, h.a2, hv]
  rfl

/-- The first bias, reshaped to a single row. -/
theorem val24 : W7 m ρ c (Proc.devRef .tc main_v24) = rowOf (m ((c : Thread nD τ).loc main_arg4)) := by
  have h := inv6 m ρ c
  host_read
  rw [h.a4]
  exact Cert.ReferenceIdeal.Stages.shapeCast_row64 _ _

/-- Region 1 writes only its output array. -/
theorem inv8 : Inv m c (W8 m ρ c) :=
  have h := inv7 m ρ c
  { a0 := (keep8 m ρ c main_arg0 (by decide)).trans h.a0
    a1 := (keep8 m ρ c main_arg1 (by decide)).trans h.a1
    a2 := (keep8 m ρ c main_arg2 (by decide)).trans h.a2
    a3 := (keep8 m ρ c main_arg3 (by decide)).trans h.a3
    a4 := (keep8 m ρ c main_arg4 (by decide)).trans h.a4
    a5 := (keep8 m ρ c main_arg5 (by decide)).trans h.a5
    a6 := (keep8 m ρ c main_arg6 (by decide)).trans h.a6
    a7 := (keep8 m ρ c main_arg7 (by decide)).trans h.a7
    a8 := (keep8 m ρ c main_arg8 (by decide)).trans h.a8
    so := (keep8 m ρ c main_v10 (by decide)).trans h.so
    si := (keep8 m ρ c main_v12 (by decide)).trans h.si }

/-- After region 1: the first layer. -/
theorem val25 : W8 m ρ c (Proc.devRef .tc main_v25) = (layer1 (m ((c : Thread nD τ).loc main_arg0)) (m ((c : Thread nD τ).loc main_arg1)) (m ((c : Thread nD τ).loc main_arg2)) (m ((c : Thread nD τ).loc main_arg3)) (m ((c : Thread nD τ).loc main_arg4))) := by
  have h := inv7 m ρ c
  have e23 := val23 m ρ c
  have e24 := val24 m ρ c
  refine (W8_arr m ρ c 4).trans ((Dense.region1_array (V7 m ρ) c).trans ?_)
  show relu (affine (W7 m ρ c (Proc.devRef .tc main_v23)) (W7 m ρ c (Proc.devRef .tc main_v12)) (W7 m ρ c (Proc.devRef .tc main_arg3)) (W7 m ρ c (Proc.devRef .tc main_v24))) = _
  rw [e23, h.si, h.a3, e24]
  rfl

/-- Region 2 writes only its output array. -/
theorem inv9 : Inv m c (W9 m ρ c) :=
  have h := inv8 m ρ c
  { a0 := (keep9 m ρ c main_arg0 (by decide)).trans h.a0
    a1 := (keep9 m ρ c main_arg1 (by decide)).trans h.a1
    a2 := (keep9 m ρ c main_arg2 (by decide)).trans h.a2
    a3 := (keep9 m ρ c main_arg3 (by decide)).trans h.a3
    a4 := (keep9 m ρ c main_arg4 (by decide)).trans h.a4
    a5 := (keep9 m ρ c main_arg5 (by decide)).trans h.a5
    a6 := (keep9 m ρ c main_arg6 (by decide)).trans h.a6
    a7 := (keep9 m ρ c main_arg7 (by decide)).trans h.a7
    a8 := (keep9 m ρ c main_arg8 (by decide)).trans h.a8
    so := (keep9 m ρ c main_v10 (by decide)).trans h.so
    si := (keep9 m ρ c main_v12 (by decide)).trans h.si }

/-- After region 2: the first layer's rows scaled by the out-degree column. -/
theorem val26 : W9 m ρ c (Proc.devRef .tc main_v26) = (scaleRows (a := 50000) (b := 64) (layer1 (m ((c : Thread nD τ).loc main_arg0)) (m ((c : Thread nD τ).loc main_arg1)) (m ((c : Thread nD τ).loc main_arg2)) (m ((c : Thread nD τ).loc main_arg3)) (m ((c : Thread nD τ).loc main_arg4))) (invSqrtDeg (m ((c : Thread nD τ).loc main_arg1)))) := by
  have h := inv8 m ρ c
  have e := val25 m ρ c
  refine (W9_arr m ρ c 2).trans ((Rows.region2_array (V8 m ρ) c).trans ?_)
  show scaleRows (W8 m ρ c (Proc.devRef .tc main_v25)) (W8 m ρ c (Proc.devRef .tc main_v10)) = _
  rw [e, h.so]

/-- The host operations between regions 2 and 3 write fresh buffers only. -/
theorem inv10 : Inv m c (W10 m ρ c) :=
  have h := inv9 m ρ c
  { a0 := by host_read; exact h.a0
    a1 := by host_read; exact h.a1
    a2 := by host_read; exact h.a2
    a3 := by host_read; exact h.a3
    a4 := by host_read; exact h.a4
    a5 := by host_read; exact h.a5
    a6 := by host_read; exact h.a6
    a7 := by host_read; exact h.a7
    a8 := by host_read; exact h.a8
    so := by host_read; exact h.so
    si := by host_read; exact h.si }

theorem val36 : W10 m ρ c (Proc.devRef .tc main_v36) = (aggregate64 (scaleRows (a := 50000) (b := 64) (layer1 (m ((c : Thread nD τ).loc main_arg0)) (m ((c : Thread nD τ).loc main_arg1)) (m ((c : Thread nD τ).loc main_arg2)) (m ((c : Thread nD τ).loc main_arg3)) (m ((c : Thread nD τ).loc main_arg4))) (invSqrtDeg (m ((c : Thread nD τ).loc main_arg1)))) (m ((c : Thread nD τ).loc main_arg1)) (m ((c : Thread nD τ).loc main_arg2))) := by
  have h := inv9 m ρ c
  have hv := val26 m ρ c
  host_read
  rw [h.a1, h.a2, hv]
  rfl

theorem val37 : W10 m ρ c (Proc.devRef .tc main_v37) = rowOf (m ((c : Thread nD τ).loc main_arg6)) := by
  have h := inv9 m ρ c
  host_read
  rw [h.a6]
  exact Cert.ReferenceIdeal.Stages.shapeCast_row32 _ _

/-- Region 3 writes only its output array. -/
theorem inv11 : Inv m c (W11 m ρ c) :=
  have h := inv10 m ρ c
  { a0 := (keep11 m ρ c main_arg0 (by decide)).trans h.a0
    a1 := (keep11 m ρ c main_arg1 (by decide)).trans h.a1
    a2 := (keep11 m ρ c main_arg2 (by decide)).trans h.a2
    a3 := (keep11 m ρ c main_arg3 (by decide)).trans h.a3
    a4 := (keep11 m ρ c main_arg4 (by decide)).trans h.a4
    a5 := (keep11 m ρ c main_arg5 (by decide)).trans h.a5
    a6 := (keep11 m ρ c main_arg6 (by decide)).trans h.a6
    a7 := (keep11 m ρ c main_arg7 (by decide)).trans h.a7
    a8 := (keep11 m ρ c main_arg8 (by decide)).trans h.a8
    so := (keep11 m ρ c main_v10 (by decide)).trans h.so
    si := (keep11 m ρ c main_v12 (by decide)).trans h.si }

/-- After region 3: the embedding, the program's first result. -/
theorem val38 : W11 m ρ c (Proc.devRef .tc main_v38) = (embedding (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  have h := inv10 m ρ c
  have e36 := val36 m ρ c
  have e37 := val37 m ρ c
  refine (W11_arr m ρ c 4).trans ((Dense.region3_array (V10 m ρ) c).trans ?_)
  show affine (W10 m ρ c (Proc.devRef .tc main_v36)) (W10 m ρ c (Proc.devRef .tc main_v12)) (W10 m ρ c (Proc.devRef .tc main_arg5)) (W10 m ρ c (Proc.devRef .tc main_v37)) = _
  rw [e36, h.si, h.a5, e37]
  rfl

/-- Region 4 writes only its output array. -/
theorem inv12 : Inv m c (W12 m ρ c) :=
  have h := inv11 m ρ c
  { a0 := (keep12 m ρ c main_arg0 (by decide)).trans h.a0
    a1 := (keep12 m ρ c main_arg1 (by decide)).trans h.a1
    a2 := (keep12 m ρ c main_arg2 (by decide)).trans h.a2
    a3 := (keep12 m ρ c main_arg3 (by decide)).trans h.a3
    a4 := (keep12 m ρ c main_arg4 (by decide)).trans h.a4
    a5 := (keep12 m ρ c main_arg5 (by decide)).trans h.a5
    a6 := (keep12 m ρ c main_arg6 (by decide)).trans h.a6
    a7 := (keep12 m ρ c main_arg7 (by decide)).trans h.a7
    a8 := (keep12 m ρ c main_arg8 (by decide)).trans h.a8
    so := (keep12 m ρ c main_v10 (by decide)).trans h.so
    si := (keep12 m ρ c main_v12 (by decide)).trans h.si }

theorem val39 : W12 m ρ c (Proc.devRef .tc main_v39) = (scaleRows (a := 50000) (b := 32) (embedding (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (invSqrtDeg (m ((c : Thread nD τ).loc main_arg1)))) := by
  have h := inv11 m ρ c
  have e := val38 m ρ c
  refine (W12_arr m ρ c 2).trans ((Rows.region4_array (V11 m ρ) c).trans ?_)
  show scaleRows (W11 m ρ c (Proc.devRef .tc main_v38)) (W11 m ρ c (Proc.devRef .tc main_v10)) = _
  rw [e, h.so]

/-- The host operations between regions 4 and 5 write fresh buffers only. -/
theorem inv13 : Inv m c (W13 m ρ c) :=
  have h := inv12 m ρ c
  { a0 := by host_read; exact h.a0
    a1 := by host_read; exact h.a1
    a2 := by host_read; exact h.a2
    a3 := by host_read; exact h.a3
    a4 := by host_read; exact h.a4
    a5 := by host_read; exact h.a5
    a6 := by host_read; exact h.a6
    a7 := by host_read; exact h.a7
    a8 := by host_read; exact h.a8
    so := by host_read; exact h.so
    si := by host_read; exact h.si }

theorem val49 : W13 m ρ c (Proc.devRef .tc main_v49) = (aggregate32 (scaleRows (a := 50000) (b := 32) (embedding (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (invSqrtDeg (m ((c : Thread nD τ).loc main_arg1)))) (m ((c : Thread nD τ).loc main_arg1)) (m ((c : Thread nD τ).loc main_arg2))) := by
  have h := inv12 m ρ c
  have hv := val39 m ρ c
  host_read
  rw [h.a1, h.a2, hv]
  rfl

theorem val50 : W13 m ρ c (Proc.devRef .tc main_v50) = rowOf (m ((c : Thread nD τ).loc main_arg8)) := by
  have h := inv12 m ρ c
  host_read
  rw [h.a8]
  exact Cert.ReferenceIdeal.Stages.shapeCast_row128 _ _

/-- After region 5: the reconstruction, the program's second result. -/
theorem result_reconstruction : W14 m ρ c (Proc.devRef .tc main_v51) = (reconstruction (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  have h := inv13 m ρ c
  have e49 := val49 m ρ c
  have e50 := val50 m ρ c
  refine (W14_arr m ρ c 4).trans ((Dense.region5_array (V13 m ρ) c).trans ?_)
  show affine (W13 m ρ c (Proc.devRef .tc main_v49)) (W13 m ρ c (Proc.devRef .tc main_v12)) (W13 m ρ c (Proc.devRef .tc main_arg7)) (W13 m ρ c (Proc.devRef .tc main_v50)) = _
  rw [e49, h.si, h.a7, e50]
  rfl

/-- The embedding is still in its buffer at the end: region 4 only reads it, the last host stretch and region 5
    do not touch it. -/
theorem result_embedding : W14 m ρ c (Proc.devRef .tc main_v38) = (embedding (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  refine (keep14 m ρ c main_v38 (by decide)).trans ?_
  refine Eq.trans ?_ ((keep12 m ρ c main_v38 (by decide)).trans (val38 m ρ c))
  host_read

end Cert.KernelIdeal.Chain

end
-- ==== Proof.RefValue.lean ====
/-
  The reference program's two results, as composed terms of its arguments, are the three layers of the
  specification applied to the argument arrays: the dense stages are rewritten by the stage lemmas, and the
  host operations shared by both programs are the same text on both sides.
-/
import proofs.«118983_j69097433858683_1_alg».proof.Proof.Gen.ReferenceIdeal.Run
import proofs.«118983_j69097433858683_1_alg».proof.Proof.HostStages
import proofs.«118983_j69097433858683_1_alg».proof.Proof.RefStages

noncomputable section

namespace Cert.ReferenceIdeal.RefValue

open Cert.ReferenceIdeal Cert.ReferenceIdeal.Gen Cert.ReferenceIdeal.Value Cert.ReferenceIdeal.Stages Cert.GraphConv
  Idealize.ShloMosaic Idealize.ShloMosaic.TcCoe Idealize.SL.Sem Cert.ReferenceIdeal.Facts₀

/-- The first result is the embedding: two layers applied to the node features. -/
theorem out0_eq (m : (ℓ : Loc nD τ sig) → Buf (Elt Ideal) ℓ) (c : Dev nD) :
    res_out0 (F := Ideal) m c = embedding (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  show res_main_v62 (F := Ideal) m c = _
  unfold res_main_v62
  generalize m ((c.tc : Thread nD τ).loc main_arg0) = a0
  generalize m ((c.tc : Thread nD τ).loc main_arg1) = a1
  generalize m ((c.tc : Thread nD τ).loc main_arg2) = a2
  generalize m ((c.tc : Thread nD τ).loc main_arg3) = a3
  generalize m ((c.tc : Thread nD τ).loc main_arg4) = a4
  generalize m ((c.tc : Thread nD τ).loc main_arg5) = a5
  generalize m ((c.tc : Thread nD τ).loc main_arg6) = a6
  rw [layer128x64, max_zero64, layer64x32, mulf_bcastCol128, mulf_bcastCol64]
  unfold embedding layer2 layer1 aggregate64 aggregate128 invSqrtDeg rowIdx
  rfl

/-- The second result is the reconstruction: the third layer applied to the embedding. -/
theorem out1_eq (m : (ℓ : Loc nD τ sig) → Buf (Elt Ideal) ℓ) (c : Dev nD) :
    res_out1 (F := Ideal) m c = reconstruction (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  show res_main_v93 (F := Ideal) m c = _
  unfold res_main_v93
  generalize m ((c.tc : Thread nD τ).loc main_arg0) = a0
  generalize m ((c.tc : Thread nD τ).loc main_arg1) = a1
  generalize m ((c.tc : Thread nD τ).loc main_arg2) = a2
  generalize m ((c.tc : Thread nD τ).loc main_arg3) = a3
  generalize m ((c.tc : Thread nD τ).loc main_arg4) = a4
  generalize m ((c.tc : Thread nD τ).loc main_arg5) = a5
  generalize m ((c.tc : Thread nD τ).loc main_arg6) = a6
  generalize m ((c.tc : Thread nD τ).loc main_arg7) = a7
  generalize m ((c.tc : Thread nD τ).loc main_arg8) = a8
  rw [layer128x64, max_zero64, layer64x32, layer32x128, mulf_bcastCol128, mulf_bcastCol64, mulf_bcastCol32]
  unfold reconstruction layer3 embedding layer2 layer1 aggregate32 aggregate64 aggregate128 invSqrtDeg rowIdx
  rfl

end Cert.ReferenceIdeal.RefValue

end
-- ==== Proof.lean ====
/-
  Three graph-convolution layers,  x ↦ D_in^(-1/2) · A · D_out^(-1/2) · x · W + b  (the first clamped below at zero),
  on a graph of 50000 nodes and 600000 edges: the kernel program against its plain reference, over the extended reals.

  Both programs compute the degree columns, the gather along the edges and the per-node sum by the same host
  operations. They differ in the dense stages: the reference multiplies whole matrices on the host, while the
  kernel program runs six pipelined regions over five blocks of 10000 rows — a row scaling before each gather, and
  after each sum a second scaling, the product with the weights (its operands rounded to a narrower format, which
  over the extended reals is the identity, accumulated from zero) and the bias. Over the extended reals a block
  product accumulated from zero and the host's product are the same finite sum, entry by entry, and the row blocks
  tile the matrices; so both programs' results are `embedding` and `reconstruction` of the argument arrays
  (HostStages.lean), with no appeal to finiteness of the inputs: no term is moved across a sum.

  The frames are the generated ones (the reference's is its generated run with the results dropped), and the ideal
  pass rewrote nothing, so the idealized kernel program is the kernel program's own text.
-/
import proofs.«118983_j69097433858683_1_alg».proof.Defs
import proofs.«118983_j69097433858683_1_alg».proof.Proof.Gen.Kernel
import proofs.«118983_j69097433858683_1_alg».proof.Proof.Gen.Kernel.Frame
import proofs.«118983_j69097433858683_1_alg».proof.Proof.Gen.KernelIdeal
import proofs.«118983_j69097433858683_1_alg».proof.Proof.Gen.KernelIdeal.Frame
import proofs.«118983_j69097433858683_1_alg».proof.Proof.Gen.ReferenceIdeal
import proofs.«118983_j69097433858683_1_alg».proof.Proof.Gen.ReferenceIdeal.Run
import proofs.«118983_j69097433858683_1_alg».proof.Proof.Gen.Pre_finite_inputs
import proofs.«118983_j69097433858683_1_alg».proof.Proof.KernelRun
import proofs.«118983_j69097433858683_1_alg».proof.Proof.KernelChain
import proofs.«118983_j69097433858683_1_alg».proof.Proof.RefValue
import Idealize.ShloMosaic.Adequacy
import Idealize.ShloMosaic.Init

noncomputable section

namespace Cert.Proof

open Idealize.ShloMosaic Idealize.SL.Sem Cert.GraphConv

/-- The kernel program terminates without a fault and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- Over the extended reals both programs end with the embedding and the reconstruction of the argument arrays:
    the kernel program by its run through the six regions, the reference by its composed term, read from memories
    that agree on the arguments. -/
theorem algebraic : Cert.algebraic_KernelIdeal_ReferenceIdeal := by
  intro m ρ m' ρ' _ hagree
  refine ⟨fun c => embedding (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => reconstruction (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Chain.result_embedding m ρ c),
        (h c).2.1.trans (Cert.KernelIdeal.Chain.result_reconstruction m ρ c), (h c).2.2⟩)
      (Cert.KernelIdeal.Run.run_values (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨e0, e1, e2, e3, e4, e5, e6, e7, e8⟩ := hagree c
      refine (Cert.ReferenceIdeal.RefValue.out0_eq m' c).trans ?_
      rw [e0, e1, e2, e3, e4, e5, e6]
    · obtain ⟨e0, e1, e2, e3, e4, e5, e6, e7, e8⟩ := hagree c
      refine (Cert.ReferenceIdeal.RefValue.out1_eq m' c).trans ?_
      rw [e0, e1, e2, e3, e4, e5, e6, e7, e8]

/-- The certificate: the programs' stated side conditions are witnessed by the generated instances, and the five
    claims hold. -/
theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
